-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x640000 : Shape := ⟨2, ![2, 640000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S100000x128 .f32) (main_arg1 : IVec S2x640000 32) (main_arg2 : FVec F S128x128 .f32) (main_arg3 : FVec F S128 .f32) (main_arg4 : FVec F S128x128 .f32) (main_arg5 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_v13 main_v16
-- ==== Kernel.lean ====
abbrev S100000x128 : Shape := ⟨2, ![100000, 128]⟩
abbrev S2x640000 : Shape := ⟨2, ![2, 640000]⟩
abbrev S128x128 : Shape := ⟨2, ![128, 128]⟩
abbrev S128 : Shape := ⟨1, ![128]⟩
abbrev S100000 : Shape := ⟨1, ![100000]⟩
abbrev S1x640000 : Shape := ⟨2, ![1, 640000]⟩
abbrev S640000 : Shape := ⟨1, ![640000]⟩
abbrev S740000 : Shape := ⟨1, ![740000]⟩
abbrev S_ : Shape := ⟨0, ![]⟩
abbrev S740000x1 : Shape := ⟨2, ![740000, 1]⟩
abbrev S5000x128 : Shape := ⟨2, ![5000, 128]⟩
abbrev S740000x128 : Shape := ⟨2, ![740000, 128]⟩
abbrev S1x128 : Shape := ⟨2, ![1, 128]⟩

abbrev nBuf : Space → Nat
  | .hbm => 84
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S100000, .i32⟩
  | .hbm, ⟨7, _⟩ => ⟨S1x640000, .i32⟩
  | .hbm, ⟨8, _⟩ => ⟨S640000, .i32⟩
  | .hbm, ⟨9, _⟩ => ⟨S740000, .i32⟩
  | .hbm, ⟨10, _⟩ => ⟨S1x640000, .i32⟩
  | .hbm, ⟨11, _⟩ => ⟨S640000, .i32⟩
  | .hbm, ⟨12, _⟩ => ⟨S740000, .i32⟩
  | .hbm, ⟨13, _⟩ => ⟨S_, .f32⟩
  | .hbm, ⟨14, _⟩ => ⟨S740000, .f32⟩
  | .hbm, ⟨15, _⟩ => ⟨S_, .f32⟩
  | .hbm, ⟨16, _⟩ => ⟨S100000, .f32⟩
  | .hbm, ⟨17, _⟩ => ⟨S740000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S740000, .i32⟩
  | .hbm, ⟨29, _⟩ => ⟨S740000, .i1⟩
  | .hbm, ⟨30, _⟩ => ⟨S_, .i32⟩
  | .hbm, ⟨31, _⟩ => ⟨S740000, .i32⟩
  | .hbm, ⟨32, _⟩ => ⟨S740000, .i32⟩
  | .hbm, ⟨33, _⟩ => ⟨S740000, .i32⟩
  | .hbm, ⟨34, _⟩ => ⟨S740000x1, .i32⟩
  | .hbm, ⟨35, _⟩ => ⟨S740000, .f32⟩
  | .hbm, ⟨36, _⟩ => ⟨S_, .i32⟩
  | .hbm, ⟨37, _⟩ => ⟨S740000, .i32⟩
  | .hbm, ⟨38, _⟩ => ⟨S740000, .i1⟩
  | .hbm, ⟨39, _⟩ => ⟨S_, .i32⟩
  | .hbm, ⟨40, _⟩ => ⟨S740000, .i32⟩
  | .hbm, ⟨41, _⟩ => ⟨S740000, .i32⟩
  | .hbm, ⟨42, _⟩ => ⟨S740000, .i32⟩
  | .hbm, ⟨43, _⟩ => ⟨S740000x1, .i32⟩
  | .hbm, ⟨44, _⟩ => ⟨S740000, .f32⟩
  | .hbm, ⟨45, _⟩ => ⟨S740000, .f32⟩
  | .hbm, ⟨46, _⟩ => ⟨S100000x128, .f32⟩
  | .hbm, ⟨47, _⟩ => ⟨S_, .i32⟩
  | .hbm, ⟨48, _⟩ => ⟨S740000, .i32⟩
  | .hbm, ⟨49, _⟩ => ⟨S740000, .i1⟩
  | .hbm, ⟨50, _⟩ => ⟨S_, .i32⟩
  | .hbm, ⟨51, _⟩ => ⟨S740000, .i32⟩
  | .hbm, ⟨52, _⟩ => ⟨S740000, .i32⟩
  | .hbm, ⟨53, _⟩ => ⟨S740000, .i32⟩
  | .hbm, ⟨54, _⟩ => ⟨S740000x1, .i32⟩
  | .hbm, ⟨55, _⟩ => ⟨S740000x128, .f32⟩
  | .hbm, ⟨56, _⟩ => ⟨S740000x1, .f32⟩
  | .hbm, ⟨57, _⟩ => ⟨S740000x128, .f32⟩
  | .hbm, ⟨58, _⟩ => ⟨S740000x128, .f32⟩
  | .hbm, ⟨59, _⟩ => ⟨S_, .f32⟩
  | .hbm, ⟨60, _⟩ => ⟨S100000x128, .f32⟩
  | .hbm, ⟨61, _⟩ => ⟨S740000x1, .i32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x128, .f32⟩
  | .hbm, ⟨66, _⟩ => ⟨S_, .i32⟩
  | .hbm, ⟨67, _⟩ => ⟨S740000, .i32⟩
  | .hbm, ⟨68, _⟩ => ⟨S740000, .i1⟩
  | .hbm, ⟨69, _⟩ => ⟨S_, .i32⟩
  | .hbm, ⟨70, _⟩ => ⟨S740000, .i32⟩
  | .hbm, ⟨71, _⟩ => ⟨S740000, .i32⟩
  | .hbm, ⟨72, _⟩ => ⟨S740000, .i32⟩
  | .hbm, ⟨73, _⟩ => ⟨S740000x1, .i32⟩
  | .hbm, ⟨74, _⟩ => ⟨S740000x128, .f32⟩
  | .hbm, ⟨75, _⟩ => ⟨S740000x1, .f32⟩
  | .hbm, ⟨76, _⟩ => ⟨S740000x128, .f32⟩
  | .hbm, ⟨77, _⟩ => ⟨S740000x128, .f32⟩
  | .hbm, ⟨78, _⟩ => ⟨S_, .f32⟩
  | .hbm, ⟨79, _⟩ => ⟨S100000x128, .f32⟩
  | .hbm, ⟨80, _⟩ => ⟨S740000x1, .i32⟩
  | .hbm, ⟨81, _⟩ => ⟨S100000x128, .f32⟩
  | .hbm, ⟨82, _⟩ => ⟨S1x128, .f32⟩
  | .hbm, ⟨83, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c_9 : Ref sig .tc := ⟨.hbm, 66, rfl⟩
abbrev main_v47 : Ref sig .tc := ⟨.hbm, 67, rfl⟩
abbrev main_v48 : Ref sig .tc := ⟨.hbm, 68, rfl⟩
abbrev main_c_10 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_11 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x640000_S1x640000_0_0 : S2x640000.Slices ![0, 0] S1x640000
  shapeCasts_S1x640000_S640000 : S1x640000.ShapeCasts S640000
  concatenates_S640000_S100000_S740000_d0 : Shape.Concatenates [S640000, S100000] S740000 0
  slices_S2x640000_S1x640000_1_0 : S2x640000.Slices ![1, 0] S1x640000
  bcast_S_S740000 : S_.BroadcastsInDim S740000 (![] : Fin 0 → Fin S740000.rank)
  bcast_S_S100000 : S_.BroadcastsInDim S100000 (![] : Fin 0 → Fin S100000.rank)
  bcast_S740000_S740000x1_0 : S740000.BroadcastsInDim S740000x1 (![0] : Fin 1 → Fin S740000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S740000x1_S740000x128_0_1 : S740000x1.BroadcastsInDim S740000x128 (![0, 1] : Fin 2 → Fin S740000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S100000_S740000x1_S740000_n_0_0_1_wf : ScatterDims.WF S100000 S740000x1 S740000 [] [0] [0] 1
  gather_S100000_S740000x1_S740000_n_0_n_n_0_1_1_wf : GatherDims.WF S100000 S740000x1 S740000 [] [0] [] [0] [] 1 ![1]
  dot_S5000x128_S128x128_S5000x128_1_0_0_1_n_n_wf : DotDims.WF S5000x128 S128x128 S5000x128 [1] [0] [0] [1] [] []
  gather_S100000x128_S740000x1_S740000x128_1_0_n_n_0_1_1128_wf : GatherDims.WF S100000x128 S740000x1 S740000x128 [1] [0] [] [0] [] 1 ![1, 128]
  scatter_S100000x128_S740000x1_S740000x128_1_0_0_1_wf : ScatterDims.WF S100000x128 S740000x1 S740000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S100000x128.size a
  hwx3_2 : ∀ i : grid3.Coords, EltTy.bits .f32 = 32 ∨ (Rect.block (s := S100000x128) S5000x128.size (cc3_transform_2 i) (hinb3_2 i)).WholeWords (EltTy.packing .f32)

variable [Facts₀]

def scatter_S100000_S740000x1_S740000_n_0_0_1 : ScatterDims S100000 S740000x1 S740000 where
  updateWindowDims := []
  insertedWindowDims := [0]
  scatterDimsToOperandDims := [0]
  indexVectorDim := 1
  wf := scatter_S100000_S740000x1_S740000_n_0_0_1_wf
def gather_S100000_S740000x1_S740000_n_0_n_n_0_1_1 : GatherDims S100000 S740000x1 S740000 where
  offsetDims := []
  collapsedSliceDims := [0]
  operandBatchingDims := []
  startIndicesBatchingDims := []
  startIndexMap := [0]
  indexVectorDim := 1
  sliceSizes := ![1]
  wf := gather_S100000_S740000x1_S740000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S740000x1_S740000x128_1_0_n_n_0_1_1128 : GatherDims S100000x128 S740000x1 S740000x128 where
  offsetDims := [1]
  collapsedSliceDims := [0]
  operandBatchingDims := []
  startIndicesBatchingDims := []
  startIndexMap := [0]
  indexVectorDim := 1
  sliceSizes := ![1, 128]
  wf := gather_S100000x128_S740000x1_S740000x128_1_0_n_n_0_1_1128_wf
def scatter_S100000x128_S740000x1_S740000x128_1_0_0_1 : ScatterDims S100000x128 S740000x1 S740000x128 where
  updateWindowDims := [1]
  insertedWindowDims := [0]
  scatterDimsToOperandDims := [0]
  indexVectorDim := 1
  wf := scatter_S100000x128_S740000x1_S740000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x640000 : Shape := ⟨2, ![2, 640000]⟩
abbrev S128x128 : Shape := ⟨2, ![128, 128]⟩
abbrev S128 : Shape := ⟨1, ![128]⟩
abbrev S100000 : Shape := ⟨1, ![100000]⟩
abbrev S1x640000 : Shape := ⟨2, ![1, 640000]⟩
abbrev S640000 : Shape := ⟨1, ![640000]⟩
abbrev S740000 : Shape := ⟨1, ![740000]⟩
abbrev S_ : Shape := ⟨0, ![]⟩
abbrev S740000x1 : Shape := ⟨2, ![740000, 1]⟩
abbrev S740000x128 : Shape := ⟨2, ![740000, 128]⟩
abbrev S1x128 : Shape := ⟨2, ![1, 128]⟩

abbrev nBuf : Space → Nat
  | .hbm => 122
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S100000, .i32⟩
  | .hbm, ⟨7, _⟩ => ⟨S1x640000, .i32⟩
  | .hbm, ⟨8, _⟩ => ⟨S640000, .i32⟩
  | .hbm, ⟨9, _⟩ => ⟨S740000, .i32⟩
  | .hbm, ⟨10, _⟩ => ⟨S1x640000, .i32⟩
  | .hbm, ⟨11, _⟩ => ⟨S640000, .i32⟩
  | .hbm, ⟨12, _⟩ => ⟨S740000, .i32⟩
  | .hbm, ⟨13, _⟩ => ⟨S100000x128, .f32⟩
  | .hbm, ⟨14, _⟩ => ⟨S_, .f32⟩
  | .hbm, ⟨15, _⟩ => ⟨S740000, .f32⟩
  | .hbm, ⟨16, _⟩ => ⟨S_, .f32⟩
  | .hbm, ⟨17, _⟩ => ⟨S100000, .f32⟩
  | .hbm, ⟨18, _⟩ => ⟨S740000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S740000, .i32⟩
  | .hbm, ⟨30, _⟩ => ⟨S740000, .i1⟩
  | .hbm, ⟨31, _⟩ => ⟨S_, .i32⟩
  | .hbm, ⟨32, _⟩ => ⟨S740000, .i32⟩
  | .hbm, ⟨33, _⟩ => ⟨S740000, .i32⟩
  | .hbm, ⟨34, _⟩ => ⟨S740000, .i32⟩
  | .hbm, ⟨35, _⟩ => ⟨S740000x1, .i32⟩
  | .hbm, ⟨36, _⟩ => ⟨S740000, .f32⟩
  | .hbm, ⟨37, _⟩ => ⟨S_, .i32⟩
  | .hbm, ⟨38, _⟩ => ⟨S740000, .i32⟩
  | .hbm, ⟨39, _⟩ => ⟨S740000, .i1⟩
  | .hbm, ⟨40, _⟩ => ⟨S_, .i32⟩
  | .hbm, ⟨41, _⟩ => ⟨S740000, .i32⟩
  | .hbm, ⟨42, _⟩ => ⟨S740000, .i32⟩
  | .hbm, ⟨43, _⟩ => ⟨S740000, .i32⟩
  | .hbm, ⟨44, _⟩ => ⟨S740000x1, .i32⟩
  | .hbm, ⟨45, _⟩ => ⟨S740000, .f32⟩
  | .hbm, ⟨46, _⟩ => ⟨S740000, .f32⟩
  | .hbm, ⟨47, _⟩ => ⟨S_, .i32⟩
  | .hbm, ⟨48, _⟩ => ⟨S740000, .i32⟩
  | .hbm, ⟨49, _⟩ => ⟨S740000, .i1⟩
  | .hbm, ⟨50, _⟩ => ⟨S_, .i32⟩
  | .hbm, ⟨51, _⟩ => ⟨S740000, .i32⟩
  | .hbm, ⟨52, _⟩ => ⟨S740000, .i32⟩
  | .hbm, ⟨53, _⟩ => ⟨S740000, .i32⟩
  | .hbm, ⟨54, _⟩ => ⟨S740000x1, .i32⟩
  | .hbm, ⟨55, _⟩ => ⟨S740000x128, .f32⟩
  | .hbm, ⟨56, _⟩ => ⟨S740000x1, .f32⟩
  | .hbm, ⟨57, _⟩ => ⟨S740000x128, .f32⟩
  | .hbm, ⟨58, _⟩ => ⟨S740000x128, .f32⟩
  | .hbm, ⟨59, _⟩ => ⟨S_, .f32⟩
  | .hbm, ⟨60, _⟩ => ⟨S100000x128, .f32⟩
  | .hbm, ⟨61, _⟩ => ⟨S740000x1, .i32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x128, .f32⟩
  | .hbm, ⟨66, _⟩ => ⟨S_, .f32⟩
  | .hbm, ⟨67, _⟩ => ⟨S100000x128, .f32⟩
  | .hbm, ⟨68, _⟩ => ⟨S100000x128, .f32⟩
  | .hbm, ⟨69, _⟩ => ⟨S100000x128, .f32⟩
  | .hbm, ⟨70, _⟩ => ⟨S_, .f32⟩
  | .hbm, ⟨71, _⟩ => ⟨S740000, .f32⟩
  | .hbm, ⟨72, _⟩ => ⟨S_, .f32⟩
  | .hbm, ⟨73, _⟩ => ⟨S100000, .f32⟩
  | .hbm, ⟨74, _⟩ => ⟨S740000x1, .i32⟩
  | .hbm, ⟨75, _⟩ => ⟨S100000, .f32⟩
  | .hbm, ⟨76, _⟩ => ⟨S_, .f32⟩
  | .hbm, ⟨77, _⟩ => ⟨S100000, .f32⟩
  | .hbm, ⟨78, _⟩ => ⟨S100000, .i1⟩
  | .hbm, ⟨79, _⟩ => ⟨S100000, .f32⟩
  | .hbm, ⟨80, _⟩ => ⟨S_, .f32⟩
  | .hbm, ⟨81, _⟩ => ⟨S_, .f32⟩
  | .hbm, ⟨82, _⟩ => ⟨S100000, .f32⟩
  | .hbm, ⟨83, _⟩ => ⟨S100000, .f32⟩
  | .hbm, ⟨84, _⟩ => ⟨S_, .i32⟩
  | .hbm, ⟨85, _⟩ => ⟨S740000, .i32⟩
  | .hbm, ⟨86, _⟩ => ⟨S740000, .i1⟩
  | .hbm, ⟨87, _⟩ => ⟨S_, .i32⟩
  | .hbm, ⟨88, _⟩ => ⟨S740000, .i32⟩
  | .hbm, ⟨89, _⟩ => ⟨S740000, .i32⟩
  | .hbm, ⟨90, _⟩ => ⟨S740000, .i32⟩
  | .hbm, ⟨91, _⟩ => ⟨S740000x1, .i32⟩
  | .hbm, ⟨92, _⟩ => ⟨S740000, .f32⟩
  | .hbm, ⟨93, _⟩ => ⟨S_, .i32⟩
  | .hbm, ⟨94, _⟩ => ⟨S740000, .i32⟩
  | .hbm, ⟨95, _⟩ => ⟨S740000, .i1⟩
  | .hbm, ⟨96, _⟩ => ⟨S_, .i32⟩
  | .hbm, ⟨97, _⟩ => ⟨S740000, .i32⟩
  | .hbm, ⟨98, _⟩ => ⟨S740000, .i32⟩
  | .hbm, ⟨99, _⟩ => ⟨S740000, .i32⟩
  | .hbm, ⟨100, _⟩ => ⟨S740000x1, .i32⟩
  | .hbm, ⟨101, _⟩ => ⟨S740000, .f32⟩
  | .hbm, ⟨102, _⟩ => ⟨S740000, .f32⟩
  | .hbm, ⟨103, _⟩ => ⟨S_, .i32⟩
  | .hbm, ⟨104, _⟩ => ⟨S740000, .i32⟩
  | .hbm, ⟨105, _⟩ => ⟨S740000, .i1⟩
  | .hbm, ⟨106, _⟩ => ⟨S_, .i32⟩
  | .hbm, ⟨107, _⟩ => ⟨S740000, .i32⟩
  | .hbm, ⟨108, _⟩ => ⟨S740000, .i32⟩
  | .hbm, ⟨109, _⟩ => ⟨S740000, .i32⟩
  | .hbm, ⟨110, _⟩ => ⟨S740000x1, .i32⟩
  | .hbm, ⟨111, _⟩ => ⟨S740000x128, .f32⟩
  | .hbm, ⟨112, _⟩ => ⟨S740000x1, .f32⟩
  | .hbm, ⟨113, _⟩ => ⟨S740000x128, .f32⟩
  | .hbm, ⟨114, _⟩ => ⟨S740000x128, .f32⟩
  | .hbm, ⟨115, _⟩ => ⟨S_, .f32⟩
  | .hbm, ⟨116, _⟩ => ⟨S100000x128, .f32⟩
  | .hbm, ⟨117, _⟩ => ⟨S740000x1, .i32⟩
  | .hbm, ⟨118, _⟩ => ⟨S100000x128, .f32⟩
  | .hbm, ⟨119, _⟩ => ⟨S1x128, .f32⟩
  | .hbm, ⟨120, _⟩ => ⟨S100000x128, .f32⟩
  | .hbm, ⟨121, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_cst_9 : Ref sig .tc := ⟨.hbm, 70, rfl⟩
abbrev main_v49 : Ref sig .tc := ⟨.hbm, 71, rfl⟩
abbrev main_cst_10 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_12 : Ref sig .tc := ⟨.hbm, 80, rfl⟩
abbrev main_call2_v0 : Ref sig .tc := ⟨.hbm, 81, rfl⟩
abbrev main_call2_v1 : Ref sig .tc := ⟨.hbm, 82, rfl⟩
abbrev main_v56 : Ref sig .tc := ⟨.hbm, 83, rfl⟩
abbrev main_c_13 : Ref sig .tc := ⟨.hbm, 84, rfl⟩
abbrev main_v57 : Ref sig .tc := ⟨.hbm, 85, rfl⟩
abbrev main_v58 : Ref sig .tc := ⟨.hbm, 86, rfl⟩
abbrev main_c_14 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_c_15 : Ref sig .tc := ⟨.hbm, 93, rfl⟩
abbrev main_v64 : Ref sig .tc := ⟨.hbm, 94, rfl⟩
abbrev main_v65 : Ref sig .tc := ⟨.hbm, 95, rfl⟩
abbrev main_c_16 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_c_17 : Ref sig .tc := ⟨.hbm, 103, rfl⟩
abbrev main_v72 : Ref sig .tc := ⟨.hbm, 104, rfl⟩
abbrev main_v73 : Ref sig .tc := ⟨.hbm, 105, rfl⟩
abbrev main_c_18 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_cst_19 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  concatenates_S640000_S100000_S740000_d0 : Shape.Concatenates [S640000, S100000] S740000 0
  slices_S2x640000_S1x640000_1_0 : S2x640000.Slices ![1, 0] S1x640000
  bcast_S_S740000 : S_.BroadcastsInDim S740000 (![] : Fin 0 → Fin S740000.rank)
  bcast_S_S100000 : S_.BroadcastsInDim S100000 (![] : Fin 0 → Fin S100000.rank)
  bcast_S740000_S740000x1_0 : S740000.BroadcastsInDim S740000x1 (![0] : Fin 1 → Fin S740000x1.rank)
  bcast_S740000x1_S740000x128_0_1 : S740000x1.BroadcastsInDim S740000x128 (![0, 1] : Fin 2 → Fin S740000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  dot_S100000x128_S128x128_S100000x128_1_0_0_1_n_n_wf : DotDims.WF S100000x128 S128x128 S100000x128 [1] [0] [0] [1] [] []
  scatter_S100000_S740000x1_S740000_n_0_0_1_wf : ScatterDims.WF S100000 S740000x1 S740000 [] [0] [0] 1
  gather_S100000_S740000x1_S740000_n_0_n_n_0_1_1_wf : GatherDims.WF S100000 S740000x1 S740000 [] [0] [] [0] [] 1 ![1]
  gather_S100000x128_S740000x1_S740000x128_1_0_n_n_0_1_1128_wf : GatherDims.WF S100000x128 S740000x1 S740000x128 [1] [0] [] [0] [] 1 ![1, 128]
  scatter_S100000x128_S740000x1_S740000x128_1_0_0_1_wf : ScatterDims.WF S100000x128 S740000x1 S740000x128 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S740000x1_S740000_n_0_0_1 : ScatterDims S100000 S740000x1 S740000 where
  updateWindowDims := []
  insertedWindowDims := [0]
  scatterDimsToOperandDims := [0]
  indexVectorDim := 1
  wf := scatter_S100000_S740000x1_S740000_n_0_0_1_wf
def gather_S100000_S740000x1_S740000_n_0_n_n_0_1_1 : GatherDims S100000 S740000x1 S740000 where
  offsetDims := []
  collapsedSliceDims := [0]
  operandBatchingDims := []
  startIndicesBatchingDims := []
  startIndexMap := [0]
  indexVectorDim := 1
  sliceSizes := ![1]
  wf := gather_S100000_S740000x1_S740000_n_0_n_n_0_1_1_wf
def gather_S100000x128_S740000x1_S740000x128_1_0_n_n_0_1_1128 : GatherDims S100000x128 S740000x1 S740000x128 where
  offsetDims := [1]
  collapsedSliceDims := [0]
  operandBatchingDims := []
  startIndicesBatchingDims := []
  startIndexMap := [0]
  indexVectorDim := 1
  sliceSizes := ![1, 128]
  wf := gather_S100000x128_S740000x1_S740000x128_1_0_n_n_0_1_1128_wf
def scatter_S100000x128_S740000x1_S740000x128_1_0_0_1 : ScatterDims S100000x128 S740000x1 S740000x128 where
  updateWindowDims := [1]
  insertedWindowDims := [0]
  scatterDimsToOperandDims := [0]
  indexVectorDim := 1
  wf := scatter_S100000x128_S740000x1_S740000x128_1_0_0_1_wf

class Facts : Prop extends Facts₀ where

variable [Facts]
-- ==== Proof.KernelRun.lean ====
/-
  The idealized kernel's run with its result named. The program is four tiled regions among stretches of host
  operations; the contents of every buffer at each boundary are a fold from the launch memory: a stretch applies its
  operations in order, a region replaces its arrays by what its write-backs leave. This module states the run with the
  result array at the last boundary's contents and the argument arrays as launched; what those contents are, as a
  function of the arguments, is read off the fold in the modules that follow.
-/
import proofs.«142823_j27324581937692_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result array then holds the last
    boundary's contents at its buffer, and the six argument arrays are as launched. The final thread state holds every
    unscoped buffer at the last boundary's contents, so the result buffer is read back exactly as the arguments are. -/
theorem run : θ_run defs (onTc (τ := τ) (main (F := F))) ⟨m, fun _ => 0, ρ⟩ (fun r => ∀ c : Dev nD,
      r.2.mem ((c.tc : Thread nD τ).loc main_v61) = W9 m ρ c (Proc.devRef .tc main_v61)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v61 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c)⟩)

end Cert.KernelIdeal.RunValue

end
-- ==== Proof.Stages.lean ====
/-
  The two-layer graph convolution as plain functions of the argument arrays, one definition per stage, written with
  the host operations the reference program is printed in. An edge list of 640000 (source, target) pairs gets the
  100000 self loops appended; a node's degree counts the edges that end at it; an edge's weight is the product of the
  inverse square roots of its two ends' degrees (zero where a degree is not positive); a layer multiplies the node
  features by a 128 × 128 matrix, sends every edge's weighted source row to its target, sums what arrives at each
  node, and adds a bias row. The network is two layers with a maximum against zero between them.
-/
import proofs.«142823_j27324581937692_1_alg».proof.ReferenceIdeal
import proofs.«142823_j27324581937692_1_alg».proof.Proof.Gen.ReferenceIdeal
import Idealize.ShloMosaic.PureOps.Ideal

noncomputable section

namespace Cert.Gcn

open Cert.ReferenceIdeal Cert.ReferenceIdeal.Gen Idealize.ShloMosaic

variable {F : FTy → Type} [FloatOps F]

/-- The source node of every edge: the edge list's first row, then every node once (its self loop). -/
def sources (e : (⟨S2x640000, .i32⟩ : BufTy).Contents (Elt F)) : (⟨S740000, .i32⟩ : BufTy).Contents (Elt F) :=
  concatenate S740000 0 [⟨S640000, shapeCast _ (extractStridedSlice S1x640000 ![0, 0] e slices_S2x640000_S1x640000_0_0) shapeCasts_S1x640000_S640000⟩, ⟨S100000, iotaInDim S100000 32 0⟩] concatenates_S640000_S100000_S740000_d0

/-- The target node of every edge: the edge list's second row, then every node once. -/
def targets (e : (⟨S2x640000, .i32⟩ : BufTy).Contents (Elt F)) : (⟨S740000, .i32⟩ : BufTy).Contents (Elt F) :=
  concatenate S740000 0 [⟨S640000, shapeCast _ (extractStridedSlice S1x640000 ![1, 0] e slices_S2x640000_S1x640000_1_0) shapeCasts_S1x640000_S640000⟩, ⟨S100000, iotaInDim S100000 32 0⟩] concatenates_S640000_S100000_S740000_d0

/-- A node number read the way an array index is: a negative one counts from the end. -/
def wrapped (v : (⟨S740000, .i32⟩ : BufTy).Contents (Elt F)) : (⟨S740000, .i32⟩ : BufTy).Contents (Elt F) :=
  select (cmpi .slt v (broadcastInDim S740000 ![] bcast_S_S740000 (constantI S_ 32 0#32)))
    (addi v (broadcastInDim S740000 ![] bcast_S_S740000 (constantI S_ 32 100000#32))) v

/-- One entry per edge laid out as a column. -/
def asColumn {α : Type} (v : S740000.Idx → α) : S740000x1.Idx → α :=
  broadcastInDim S740000x1 ![0] bcast_S740000_S740000x1_0 v

/-- A node's degree: one for every edge that ends at it. -/
def degree (e : (⟨S2x640000, .i32⟩ : BufTy).Contents (Elt F)) : (⟨S100000, .f32⟩ : BufTy).Contents (Elt F) :=
  Host.scatterAdd scatter_S100000_S740000x1_S740000_n_0_0_1
    (broadcastInDim S100000 ![] bcast_S_S100000 (constant S_ .f32 0x00000000#32))
    (asColumn (targets (F := F) e))
    (broadcastInDim S740000 ![] bcast_S_S740000 (constant S_ .f32 0x3F800000#32))

/-- The inverse square root of a node's degree where the degree is positive, zero elsewhere. -/
def invSqrtDegree (e : (⟨S2x640000, .i32⟩ : BufTy).Contents (Elt F)) : (⟨S100000, .f32⟩ : BufTy).Contents (Elt F) :=
  select (cmpf .ogt (degree (F := F) e) (broadcastInDim S100000 ![] bcast_S_S100000 (constant S_ .f32 0x00000000#32)))
    (Host.rsqrt (degree (F := F) e))
    (broadcastInDim S100000 ![] bcast_S_S100000 (constant S_ .f32 0x00000000#32))

/-- An edge's weight: the product of its two ends' inverse square root degrees. -/
def edgeWeight (e : (⟨S2x640000, .i32⟩ : BufTy).Contents (Elt F)) : (⟨S740000, .f32⟩ : BufTy).Contents (Elt F) :=
  mulf (Host.gather gather_S100000_S740000x1_S740000_n_0_n_n_0_1_1 (invSqrtDegree (F := F) e) (asColumn (wrapped (F := F) (sources (F := F) e))))
    (Host.gather gather_S100000_S740000x1_S740000_n_0_n_n_0_1_1 (invSqrtDegree (F := F) e) (asColumn (wrapped (F := F) (targets (F := F) e))))

/-- What arrives at each node: every edge carries its source's row, scaled by the edge's weight, to its target, and the
    rows arriving at a node are summed. -/
def aggregate (h : (⟨S100000x128, .f32⟩ : BufTy).Contents (Elt F)) (e : (⟨S2x640000, .i32⟩ : BufTy).Contents (Elt F)) :
    (⟨S100000x128, .f32⟩ : BufTy).Contents (Elt F) :=
  Host.scatterAdd scatter_S100000x128_S740000x1_S740000x128_1_0_0_1
    (broadcastInDim S100000x128 ![] bcast_S_S100000x128 (constant S_ .f32 0x00000000#32))
    (asColumn (targets (F := F) e))
    (mulf (Host.gather gather_S100000x128_S740000x1_S740000x128_1_0_n_n_0_1_1128 h (asColumn (wrapped (F := F) (sources (F := F) e))))
      (broadcastInDim S740000x128 ![0, 1] bcast_S740000x1_S740000x128_0_1 (asColumn (edgeWeight (F := F) e))))

/-- The node features times a 128 × 128 matrix. -/
def dense (x : (⟨S100000x128, .f32⟩ : BufTy).Contents (Elt F)) (w : (⟨S128x128, .f32⟩ : BufTy).Contents (Elt F)) :
    (⟨S100000x128, .f32⟩ : BufTy).Contents (Elt F) :=
  Host.dotGeneral dot_S100000x128_S128x128_S100000x128_1_0_0_1_n_n none x w

/-- A bias of 128 entries as a row, repeated for every node. -/
def biasRows (b : (⟨S128, .f32⟩ : BufTy).Contents (Elt F)) : (⟨S100000x128, .f32⟩ : BufTy).Contents (Elt F) :=
  broadcastInDim S100000x128 ![0, 1] bcast_S1x128_S100000x128_0_1 (broadcastInDim S1x128 ![1] bcast_S128_S1x128_1 b)

/-- Zero at every node and feature. -/
def zeroRows : (⟨S100000x128, .f32⟩ : BufTy).Contents (Elt F) :=
  broadcastInDim S100000x128 ![] bcast_S_S100000x128 (constant S_ .f32 0x00000000#32)

/-- One layer before its activation: multiply, aggregate along the edges, add the bias. -/
def layer (h : (⟨S100000x128, .f32⟩ : BufTy).Contents (Elt F)) (e : (⟨S2x640000, .i32⟩ : BufTy).Contents (Elt F))
    (w : (⟨S128x128, .f32⟩ : BufTy).Contents (Elt F)) (b : (⟨S128, .f32⟩ : BufTy).Contents (Elt F)) :
    (⟨S100000x128, .f32⟩ : BufTy).Contents (Elt F) :=
  addf (aggregate (F := F) (dense (F := F) h w) e) (biasRows (F := F) b)

/-- The hidden features: the first layer, then the maximum with zero. -/
def hidden (x : (⟨S100000x128, .f32⟩ : BufTy).Contents (Elt F)) (e : (⟨S2x640000, .i32⟩ : BufTy).Contents (Elt F))
    (w1 : (⟨S128x128, .f32⟩ : BufTy).Contents (Elt F)) (b1 : (⟨S128, .f32⟩ : BufTy).Contents (Elt F)) :
    (⟨S100000x128, .f32⟩ : BufTy).Contents (Elt F) :=
  maximumf (layer (F := F) x e w1 b1) (zeroRows (F := F))

/-- The network: the second layer of the hidden features. -/
def net (x : (⟨S100000x128, .f32⟩ : BufTy).Contents (Elt F)) (e : (⟨S2x640000, .i32⟩ : BufTy).Contents (Elt F))
    (w1 : (⟨S128x128, .f32⟩ : BufTy).Contents (Elt F)) (b1 : (⟨S128, .f32⟩ : BufTy).Contents (Elt F))
    (w2 : (⟨S128x128, .f32⟩ : BufTy).Contents (Elt F)) (b2 : (⟨S128, .f32⟩ : BufTy).Contents (Elt F)) :
    (⟨S100000x128, .f32⟩ : BufTy).Contents (Elt F) :=
  layer (F := F) (hidden (F := F) x e w1 b1) e w2 b2

end Cert.Gcn

end
-- ==== Proof.RefRun.lean ====
/-
  The reference program's run. Its @main is a straight line of 116 host operations (the two outlined helper functions,
  a select against a scalar and a maximum against zero, stand inline at their calls), so every weakly fair execution
  terminates with each buffer at the fold of the operations over the launch contents. Read at the result buffer, that
  fold is the two-layer graph convolution of the six argument arrays, stage by stage; read at an argument's buffer, which
  no operation writes, it is the argument as launched.
-/
import proofs.«142823_j27324581937692_1_alg».proof.Proof.Gen.ReferenceIdeal
import proofs.«142823_j27324581937692_1_alg».proof.Proof.Stages
import Idealize.ShloMosaic.Lib.StableHlo.Run

noncomputable section

namespace Cert.ReferenceIdeal.HostRun

open Cert.ReferenceIdeal Cert.ReferenceIdeal.Gen Idealize.ShloMosaic Idealize.ShloMosaic.TcCoe Idealize.SL.Sem Idealize.ShloMosaic.StableHlo

variable {F : FTy → Type} [FloatOps F]

/-- @main's 116 operations, in order. -/
abbrev ops : List (HloOp τ sig (Elt F)) :=
  [ nullary main_v0 (iotaInDim S100000 32 0),
    unary main_arg1 main_v1 ((extractStridedSlice S1x640000 ![0, 0] · slices_S2x640000_S1x640000_0_0) : (⟨S2x640000, .i32⟩ : BufTy).Contents (Elt F) → (⟨S1x640000, .i32⟩ : BufTy).Contents (Elt F)),
    reshape main_v1 main_v2 rfl shapeCasts_S1x640000_S640000,
    binary main_v2 main_v0 main_v3 ((fun a b => concatenate S740000 0 [⟨S640000, a⟩, ⟨S100000, b⟩] concatenates_S640000_S100000_S740000_d0) : (⟨S640000, .i32⟩ : BufTy).Contents (Elt F) → (⟨S100000, .i32⟩ : BufTy).Contents (Elt F) → (⟨S740000, .i32⟩ : BufTy).Contents (Elt F)),
    unary main_arg1 main_v4 ((extractStridedSlice S1x640000 ![1, 0] · slices_S2x640000_S1x640000_1_0) : (⟨S2x640000, .i32⟩ : BufTy).Contents (Elt F) → (⟨S1x640000, .i32⟩ : BufTy).Contents (Elt F)),
    reshape main_v4 main_v5 rfl shapeCasts_S1x640000_S640000,
    binary main_v5 main_v0 main_v6 ((fun a b => concatenate S740000 0 [⟨S640000, a⟩, ⟨S100000, b⟩] concatenates_S640000_S100000_S740000_d0) : (⟨S640000, .i32⟩ : BufTy).Contents (Elt F) → (⟨S100000, .i32⟩ : BufTy).Contents (Elt F) → (⟨S740000, .i32⟩ : BufTy).Contents (Elt F)),
    binary main_arg0 main_arg2 main_v7 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_cst (constant S_ .f32 0x3F800000#32),
    unary main_cst main_v8 (broadcastInDim S740000 ![] bcast_S_S740000 : (⟨S_, .f32⟩ : BufTy).Contents (Elt F) → (⟨S740000, .f32⟩ : BufTy).Contents (Elt F)),
    nullary main_cst_0 (constant S_ .f32 0x00000000#32),
    unary main_cst_0 main_v9 (broadcastInDim S100000 ![] bcast_S_S100000 : (⟨S_, .f32⟩ : BufTy).Contents (Elt F) → (⟨S100000, .f32⟩ : BufTy).Contents (Elt F)),
    unary main_v6 main_v10 (broadcastInDim S740000x1 ![0] bcast_S740000_S740000x1_0 : (⟨S740000, .i32⟩ : BufTy).Contents (Elt F) → (⟨S740000x1, .i32⟩ : BufTy).Contents (Elt F)),
    ternary main_v9 main_v10 main_v8 main_v11 ((fun x i u => Host.scatterAdd scatter_S100000_S740000x1_S740000_n_0_0_1 x i u) : (⟨S100000, .f32⟩ : BufTy).Contents (Elt F) → (⟨S740000x1, .i32⟩ : BufTy).Contents (Elt F) → (⟨S740000, .f32⟩ : BufTy).Contents (Elt F) → (⟨S100000, .f32⟩ : BufTy).Contents (Elt F)),
    nullary main_cst_1 (constant S_ .f32 0x00000000#32),
    unary main_cst_1 main_v12 (broadcastInDim S100000 ![] bcast_S_S100000 : (⟨S_, .f32⟩ : BufTy).Contents (Elt F) → (⟨S100000, .f32⟩ : BufTy).Contents (Elt F)),
    binary main_v11 main_v12 main_v13 (cmpf .ogt : (⟨S100000, .f32⟩ : BufTy).Contents (Elt F) → (⟨S100000, .f32⟩ : BufTy).Contents (Elt F) → (⟨S100000, .i1⟩ : BufTy).Contents (Elt F)),
    unary main_v11 main_v14 (Host.rsqrt : (⟨S100000, .f32⟩ : BufTy).Contents (Elt F) → (⟨S100000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v13) (TRef.of (T := ⟨S100000, .f32⟩) main_v14) (TRef.of (T := ⟨S100000, .f32⟩) main_call0_v1) (TRef.of (T := ⟨S100000, .f32⟩) main_v15) select,
    nullary main_c (constantI S_ 32 0#32),
    unary main_c main_v16 (broadcastInDim S740000 ![] bcast_S_S740000 : (⟨S_, .i32⟩ : BufTy).Contents (Elt F) → (⟨S740000, .i32⟩ : BufTy).Contents (Elt F)),
    binary main_v3 main_v16 main_v17 (cmpi .slt : (⟨S740000, .i32⟩ : BufTy).Contents (Elt F) → (⟨S740000, .i32⟩ : BufTy).Contents (Elt F) → (⟨S740000, .i1⟩ : BufTy).Contents (Elt F)),
    nullary main_c_3 (constantI S_ 32 100000#32),
    unary main_c_3 main_v18 (broadcastInDim S740000 ![] bcast_S_S740000 : (⟨S_, .i32⟩ : BufTy).Contents (Elt F) → (⟨S740000, .i32⟩ : BufTy).Contents (Elt F)),
    binary main_v3 main_v18 main_v19 (addi : (⟨S740000, .i32⟩ : BufTy).Contents (Elt F) → (⟨S740000, .i32⟩ : BufTy).Contents (Elt F) → (⟨S740000, .i32⟩ : BufTy).Contents (Elt F)),
    ternary main_v17 main_v19 main_v3 main_v20 (select : (⟨S740000, .i1⟩ : BufTy).Contents (Elt F) → (⟨S740000, .i32⟩ : BufTy).Contents (Elt F) → (⟨S740000, .i32⟩ : BufTy).Contents (Elt F) → (⟨S740000, .i32⟩ : BufTy).Contents (Elt F)),
    unary main_v20 main_v21 (broadcastInDim S740000x1 ![0] bcast_S740000_S740000x1_0 : (⟨S740000, .i32⟩ : BufTy).Contents (Elt F) → (⟨S740000x1, .i32⟩ : BufTy).Contents (Elt F)),
    binary main_v15 main_v21 main_v22 ((fun x i => Host.gather gather_S100000_S740000x1_S740000_n_0_n_n_0_1_1 x i) : (⟨S100000, .f32⟩ : BufTy).Contents (Elt F) → (⟨S740000x1, .i32⟩ : BufTy).Contents (Elt F) → (⟨S740000, .f32⟩ : BufTy).Contents (Elt F)),
    nullary main_c_4 (constantI S_ 32 0#32),
    unary main_c_4 main_v23 (broadcastInDim S740000 ![] bcast_S_S740000 : (⟨S_, .i32⟩ : BufTy).Contents (Elt F) → (⟨S740000, .i32⟩ : BufTy).Contents (Elt F)),
    binary main_v6 main_v23 main_v24 (cmpi .slt : (⟨S740000, .i32⟩ : BufTy).Contents (Elt F) → (⟨S740000, .i32⟩ : BufTy).Contents (Elt F) → (⟨S740000, .i1⟩ : BufTy).Contents (Elt F)),
    nullary main_c_5 (constantI S_ 32 100000#32),
    unary main_c_5 main_v25 (broadcastInDim S740000 ![] bcast_S_S740000 : (⟨S_, .i32⟩ : BufTy).Contents (Elt F) → (⟨S740000, .i32⟩ : BufTy).Contents (Elt F)),
    binary main_v6 main_v25 main_v26 (addi : (⟨S740000, .i32⟩ : BufTy).Contents (Elt F) → (⟨S740000, .i32⟩ : BufTy).Contents (Elt F) → (⟨S740000, .i32⟩ : BufTy).Contents (Elt F)),
    ternary main_v24 main_v26 main_v6 main_v27 (select : (⟨S740000, .i1⟩ : BufTy).Contents (Elt F) → (⟨S740000, .i32⟩ : BufTy).Contents (Elt F) → (⟨S740000, .i32⟩ : BufTy).Contents (Elt F) → (⟨S740000, .i32⟩ : BufTy).Contents (Elt F)),
    unary main_v27 main_v28 (broadcastInDim S740000x1 ![0] bcast_S740000_S740000x1_0 : (⟨S740000, .i32⟩ : BufTy).Contents (Elt F) → (⟨S740000x1, .i32⟩ : BufTy).Contents (Elt F)),
    binary main_v15 main_v28 main_v29 ((fun x i => Host.gather gather_S100000_S740000x1_S740000_n_0_n_n_0_1_1 x i) : (⟨S100000, .f32⟩ : BufTy).Contents (Elt F) → (⟨S740000x1, .i32⟩ : BufTy).Contents (Elt F) → (⟨S740000, .f32⟩ : BufTy).Contents (Elt F)),
    binary main_v22 main_v29 main_v30 (mulf : (⟨S740000, .f32⟩ : BufTy).Contents (Elt F) → (⟨S740000, .f32⟩ : BufTy).Contents (Elt F) → (⟨S740000, .f32⟩ : BufTy).Contents (Elt F)),
    nullary main_c_6 (constantI S_ 32 0#32),
    unary main_c_6 main_v31 (broadcastInDim S740000 ![] bcast_S_S740000 : (⟨S_, .i32⟩ : BufTy).Contents (Elt F) → (⟨S740000, .i32⟩ : BufTy).Contents (Elt F)),
    binary main_v3 main_v31 main_v32 (cmpi .slt : (⟨S740000, .i32⟩ : BufTy).Contents (Elt F) → (⟨S740000, .i32⟩ : BufTy).Contents (Elt F) → (⟨S740000, .i1⟩ : BufTy).Contents (Elt F)),
    nullary main_c_7 (constantI S_ 32 100000#32),
    unary main_c_7 main_v33 (broadcastInDim S740000 ![] bcast_S_S740000 : (⟨S_, .i32⟩ : BufTy).Contents (Elt F) → (⟨S740000, .i32⟩ : BufTy).Contents (Elt F)),
    binary main_v3 main_v33 main_v34 (addi : (⟨S740000, .i32⟩ : BufTy).Contents (Elt F) → (⟨S740000, .i32⟩ : BufTy).Contents (Elt F) → (⟨S740000, .i32⟩ : BufTy).Contents (Elt F)),
    ternary main_v32 main_v34 main_v3 main_v35 (select : (⟨S740000, .i1⟩ : BufTy).Contents (Elt F) → (⟨S740000, .i32⟩ : BufTy).Contents (Elt F) → (⟨S740000, .i32⟩ : BufTy).Contents (Elt F) → (⟨S740000, .i32⟩ : BufTy).Contents (Elt F)),
    unary main_v35 main_v36 (broadcastInDim S740000x1 ![0] bcast_S740000_S740000x1_0 : (⟨S740000, .i32⟩ : BufTy).Contents (Elt F) → (⟨S740000x1, .i32⟩ : BufTy).Contents (Elt F)),
    binary main_v7 main_v36 main_v37 ((fun x i => Host.gather gather_S100000x128_S740000x1_S740000x128_1_0_n_n_0_1_1128 x i) : (⟨S100000x128, .f32⟩ : BufTy).Contents (Elt F) → (⟨S740000x1, .i32⟩ : BufTy).Contents (Elt F) → (⟨S740000x128, .f32⟩ : BufTy).Contents (Elt F)),
    unary main_v30 main_v38 (broadcastInDim S740000x1 ![0] bcast_S740000_S740000x1_0 : (⟨S740000, .f32⟩ : BufTy).Contents (Elt F) → (⟨S740000x1, .f32⟩ : BufTy).Contents (Elt F)),
    unary main_v38 main_v39 (broadcastInDim S740000x128 ![0, 1] bcast_S740000x1_S740000x128_0_1 : (⟨S740000x1, .f32⟩ : BufTy).Contents (Elt F) → (⟨S740000x128, .f32⟩ : BufTy).Contents (Elt F)),
    binary main_v37 main_v39 main_v40 (mulf : (⟨S740000x128, .f32⟩ : BufTy).Contents (Elt F) → (⟨S740000x128, .f32⟩ : BufTy).Contents (Elt F) → (⟨S740000x128, .f32⟩ : BufTy).Contents (Elt F)),
    nullary main_cst_8 (constant S_ .f32 0x00000000#32),
    unary main_cst_8 main_v41 (broadcastInDim S100000x128 ![] bcast_S_S100000x128 : (⟨S_, .f32⟩ : BufTy).Contents (Elt F) → (⟨S100000x128, .f32⟩ : BufTy).Contents (Elt F)),
    unary main_v6 main_v42 (broadcastInDim S740000x1 ![0] bcast_S740000_S740000x1_0 : (⟨S740000, .i32⟩ : BufTy).Contents (Elt F) → (⟨S740000x1, .i32⟩ : BufTy).Contents (Elt F)),
    ternary main_v41 main_v42 main_v40 main_v43 ((fun x i u => Host.scatterAdd scatter_S100000x128_S740000x1_S740000x128_1_0_0_1 x i u) : (⟨S100000x128, .f32⟩ : BufTy).Contents (Elt F) → (⟨S740000x1, .i32⟩ : BufTy).Contents (Elt F) → (⟨S740000x128, .f32⟩ : BufTy).Contents (Elt F) → (⟨S100000x128, .f32⟩ : BufTy).Contents (Elt F)),
    unary main_arg3 main_v44 (broadcastInDim S1x128 ![1] bcast_S128_S1x128_1 : (⟨S128, .f32⟩ : BufTy).Contents (Elt F) → (⟨S1x128, .f32⟩ : BufTy).Contents (Elt F)),
    unary main_v44 main_v45 (broadcastInDim S100000x128 ![0, 1] bcast_S1x128_S100000x128_0_1 : (⟨S1x128, .f32⟩ : BufTy).Contents (Elt F) → (⟨S100000x128, .f32⟩ : BufTy).Contents (Elt F)),
    binary main_v43 main_v45 main_v46 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v46) (TRef.of (T := ⟨S100000x128, .f32⟩) main_call1_v0) (TRef.of (T := ⟨S100000x128, .f32⟩) main_v47) maximumf,
    binary main_v47 main_arg4 main_v48 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_cst_9 (constant S_ .f32 0x3F800000#32),
    unary main_cst_9 main_v49 (broadcastInDim S740000 ![] bcast_S_S740000 : (⟨S_, .f32⟩ : BufTy).Contents (Elt F) → (⟨S740000, .f32⟩ : BufTy).Contents (Elt F)),
    nullary main_cst_10 (constant S_ .f32 0x00000000#32),
    unary main_cst_10 main_v50 (broadcastInDim S100000 ![] bcast_S_S100000 : (⟨S_, .f32⟩ : BufTy).Contents (Elt F) → (⟨S100000, .f32⟩ : BufTy).Contents (Elt F)),
    unary main_v6 main_v51 (broadcastInDim S740000x1 ![0] bcast_S740000_S740000x1_0 : (⟨S740000, .i32⟩ : BufTy).Contents (Elt F) → (⟨S740000x1, .i32⟩ : BufTy).Contents (Elt F)),
    ternary main_v50 main_v51 main_v49 main_v52 ((fun x i u => Host.scatterAdd scatter_S100000_S740000x1_S740000_n_0_0_1 x i u) : (⟨S100000, .f32⟩ : BufTy).Contents (Elt F) → (⟨S740000x1, .i32⟩ : BufTy).Contents (Elt F) → (⟨S740000, .f32⟩ : BufTy).Contents (Elt F) → (⟨S100000, .f32⟩ : BufTy).Contents (Elt F)),
    nullary main_cst_11 (constant S_ .f32 0x00000000#32),
    unary main_cst_11 main_v53 (broadcastInDim S100000 ![] bcast_S_S100000 : (⟨S_, .f32⟩ : BufTy).Contents (Elt F) → (⟨S100000, .f32⟩ : BufTy).Contents (Elt F)),
    binary main_v52 main_v53 main_v54 (cmpf .ogt : (⟨S100000, .f32⟩ : BufTy).Contents (Elt F) → (⟨S100000, .f32⟩ : BufTy).Contents (Elt F) → (⟨S100000, .i1⟩ : BufTy).Contents (Elt F)),
    unary main_v52 main_v55 (Host.rsqrt : (⟨S100000, .f32⟩ : BufTy).Contents (Elt F) → (⟨S100000, .f32⟩ : BufTy).Contents (Elt F)),
    nullary main_cst_12 (constant S_ .f32 0x00000000#32),
    TRef.unary (TRef.of (T := ⟨S_, .f32⟩) main_cst_12) (TRef.of (T := ⟨S_, .f32⟩) main_call2_v0) id,
    TRef.unary (TRef.of (T := ⟨S_, .f32⟩) main_call2_v0) (TRef.of (T := ⟨S100000, .f32⟩) main_call2_v1) (broadcastInDim S100000 ![] bcast_S_S100000),
    TRef.ternary (TRef.of (T := ⟨S100000, .i1⟩) main_v54) (TRef.of (T := ⟨S100000, .f32⟩) main_v55) (TRef.of (T := ⟨S100000, .f32⟩) main_call2_v1) (TRef.of (T := ⟨S100000, .f32⟩) main_v56) select,
    nullary main_c_13 (constantI S_ 32 0#32),
    unary main_c_13 main_v57 (broadcastInDim S740000 ![] bcast_S_S740000 : (⟨S_, .i32⟩ : BufTy).Contents (Elt F) → (⟨S740000, .i32⟩ : BufTy).Contents (Elt F)),
    binary main_v3 main_v57 main_v58 (cmpi .slt : (⟨S740000, .i32⟩ : BufTy).Contents (Elt F) → (⟨S740000, .i32⟩ : BufTy).Contents (Elt F) → (⟨S740000, .i1⟩ : BufTy).Contents (Elt F)),
    nullary main_c_14 (constantI S_ 32 100000#32),
    unary main_c_14 main_v59 (broadcastInDim S740000 ![] bcast_S_S740000 : (⟨S_, .i32⟩ : BufTy).Contents (Elt F) → (⟨S740000, .i32⟩ : BufTy).Contents (Elt F)),
    binary main_v3 main_v59 main_v60 (addi : (⟨S740000, .i32⟩ : BufTy).Contents (Elt F) → (⟨S740000, .i32⟩ : BufTy).Contents (Elt F) → (⟨S740000, .i32⟩ : BufTy).Contents (Elt F)),
    ternary main_v58 main_v60 main_v3 main_v61 (select : (⟨S740000, .i1⟩ : BufTy).Contents (Elt F) → (⟨S740000, .i32⟩ : BufTy).Contents (Elt F) → (⟨S740000, .i32⟩ : BufTy).Contents (Elt F) → (⟨S740000, .i32⟩ : BufTy).Contents (Elt F)),
    unary main_v61 main_v62 (broadcastInDim S740000x1 ![0] bcast_S740000_S740000x1_0 : (⟨S740000, .i32⟩ : BufTy).Contents (Elt F) → (⟨S740000x1, .i32⟩ : BufTy).Contents (Elt F)),
    binary main_v56 main_v62 main_v63 ((fun x i => Host.gather gather_S100000_S740000x1_S740000_n_0_n_n_0_1_1 x i) : (⟨S100000, .f32⟩ : BufTy).Contents (Elt F) → (⟨S740000x1, .i32⟩ : BufTy).Contents (Elt F) → (⟨S740000, .f32⟩ : BufTy).Contents (Elt F)),
    nullary main_c_15 (constantI S_ 32 0#32),
    unary main_c_15 main_v64 (broadcastInDim S740000 ![] bcast_S_S740000 : (⟨S_, .i32⟩ : BufTy).Contents (Elt F) → (⟨S740000, .i32⟩ : BufTy).Contents (Elt F)),
    binary main_v6 main_v64 main_v65 (cmpi .slt : (⟨S740000, .i32⟩ : BufTy).Contents (Elt F) → (⟨S740000, .i32⟩ : BufTy).Contents (Elt F) → (⟨S740000, .i1⟩ : BufTy).Contents (Elt F)),
    nullary main_c_16 (constantI S_ 32 100000#32),
    unary main_c_16 main_v66 (broadcastInDim S740000 ![] bcast_S_S740000 : (⟨S_, .i32⟩ : BufTy).Contents (Elt F) → (⟨S740000, .i32⟩ : BufTy).Contents (Elt F)),
    binary main_v6 main_v66 main_v67 (addi : (⟨S740000, .i32⟩ : BufTy).Contents (Elt F) → (⟨S740000, .i32⟩ : BufTy).Contents (Elt F) → (⟨S740000, .i32⟩ : BufTy).Contents (Elt F)),
    ternary main_v65 main_v67 main_v6 main_v68 (select : (⟨S740000, .i1⟩ : BufTy).Contents (Elt F) → (⟨S740000, .i32⟩ : BufTy).Contents (Elt F) → (⟨S740000, .i32⟩ : BufTy).Contents (Elt F) → (⟨S740000, .i32⟩ : BufTy).Contents (Elt F)),
    unary main_v68 main_v69 (broadcastInDim S740000x1 ![0] bcast_S740000_S740000x1_0 : (⟨S740000, .i32⟩ : BufTy).Contents (Elt F) → (⟨S740000x1, .i32⟩ : BufTy).Contents (Elt F)),
    binary main_v56 main_v69 main_v70 ((fun x i => Host.gather gather_S100000_S740000x1_S740000_n_0_n_n_0_1_1 x i) : (⟨S100000, .f32⟩ : BufTy).Contents (Elt F) → (⟨S740000x1, .i32⟩ : BufTy).Contents (Elt F) → (⟨S740000, .f32⟩ : BufTy).Contents (Elt F)),
    binary main_v63 main_v70 main_v71 (mulf : (⟨S740000, .f32⟩ : BufTy).Contents (Elt F) → (⟨S740000, .f32⟩ : BufTy).Contents (Elt F) → (⟨S740000, .f32⟩ : BufTy).Contents (Elt F)),
    nullary main_c_17 (constantI S_ 32 0#32),
    unary main_c_17 main_v72 (broadcastInDim S740000 ![] bcast_S_S740000 : (⟨S_, .i32⟩ : BufTy).Contents (Elt F) → (⟨S740000, .i32⟩ : BufTy).Contents (Elt F)),
    binary main_v3 main_v72 main_v73 (cmpi .slt : (⟨S740000, .i32⟩ : BufTy).Contents (Elt F) → (⟨S740000, .i32⟩ : BufTy).Contents (Elt F) → (⟨S740000, .i1⟩ : BufTy).Contents (Elt F)),
    nullary main_c_18 (constantI S_ 32 100000#32),
    unary main_c_18 main_v74 (broadcastInDim S740000 ![] bcast_S_S740000 : (⟨S_, .i32⟩ : BufTy).Contents (Elt F) → (⟨S740000, .i32⟩ : BufTy).Contents (Elt F)),
    binary main_v3 main_v74 main_v75 (addi : (⟨S740000, .i32⟩ : BufTy).Contents (Elt F) → (⟨S740000, .i32⟩ : BufTy).Contents (Elt F) → (⟨S740000, .i32⟩ : BufTy).Contents (Elt F)),
    ternary main_v73 main_v75 main_v3 main_v76 (select : (⟨S740000, .i1⟩ : BufTy).Contents (Elt F) → (⟨S740000, .i32⟩ : BufTy).Contents (Elt F) → (⟨S740000, .i32⟩ : BufTy).Contents (Elt F) → (⟨S740000, .i32⟩ : BufTy).Contents (Elt F)),
    unary main_v76 main_v77 (broadcastInDim S740000x1 ![0] bcast_S740000_S740000x1_0 : (⟨S740000, .i32⟩ : BufTy).Contents (Elt F) → (⟨S740000x1, .i32⟩ : BufTy).Contents (Elt F)),
    binary main_v48 main_v77 main_v78 ((fun x i => Host.gather gather_S100000x128_S740000x1_S740000x128_1_0_n_n_0_1_1128 x i) : (⟨S100000x128, .f32⟩ : BufTy).Contents (Elt F) → (⟨S740000x1, .i32⟩ : BufTy).Contents (Elt F) → (⟨S740000x128, .f32⟩ : BufTy).Contents (Elt F)),
    unary main_v71 main_v79 (broadcastInDim S740000x1 ![0] bcast_S740000_S740000x1_0 : (⟨S740000, .f32⟩ : BufTy).Contents (Elt F) → (⟨S740000x1, .f32⟩ : BufTy).Contents (Elt F)),
    unary main_v79 main_v80 (broadcastInDim S740000x128 ![0, 1] bcast_S740000x1_S740000x128_0_1 : (⟨S740000x1, .f32⟩ : BufTy).Contents (Elt F) → (⟨S740000x128, .f32⟩ : BufTy).Contents (Elt F)),
    binary main_v78 main_v80 main_v81 (mulf : (⟨S740000x128, .f32⟩ : BufTy).Contents (Elt F) → (⟨S740000x128, .f32⟩ : BufTy).Contents (Elt F) → (⟨S740000x128, .f32⟩ : BufTy).Contents (Elt F)),
    nullary main_cst_19 (constant S_ .f32 0x00000000#32),
    unary main_cst_19 main_v82 (broadcastInDim S100000x128 ![] bcast_S_S100000x128 : (⟨S_, .f32⟩ : BufTy).Contents (Elt F) → (⟨S100000x128, .f32⟩ : BufTy).Contents (Elt F)),
    unary main_v6 main_v83 (broadcastInDim S740000x1 ![0] bcast_S740000_S740000x1_0 : (⟨S740000, .i32⟩ : BufTy).Contents (Elt F) → (⟨S740000x1, .i32⟩ : BufTy).Contents (Elt F)),
    ternary main_v82 main_v83 main_v81 main_v84 ((fun x i u => Host.scatterAdd scatter_S100000x128_S740000x1_S740000x128_1_0_0_1 x i u) : (⟨S100000x128, .f32⟩ : BufTy).Contents (Elt F) → (⟨S740000x1, .i32⟩ : BufTy).Contents (Elt F) → (⟨S740000x128, .f32⟩ : BufTy).Contents (Elt F) → (⟨S100000x128, .f32⟩ : BufTy).Contents (Elt F)),
    unary main_arg5 main_v85 (broadcastInDim S1x128 ![1] bcast_S128_S1x128_1 : (⟨S128, .f32⟩ : BufTy).Contents (Elt F) → (⟨S1x128, .f32⟩ : BufTy).Contents (Elt F)),
    unary main_v85 main_v86 (broadcastInDim S100000x128 ![0, 1] bcast_S1x128_S100000x128_0_1 : (⟨S1x128, .f32⟩ : BufTy).Contents (Elt F) → (⟨S100000x128, .f32⟩ : BufTy).Contents (Elt F)),
    binary main_v84 main_v86 main_v87 (addf : (⟨S100000x128, .f32⟩ : BufTy).Contents (Elt F) → (⟨S100000x128, .f32⟩ : BufTy).Contents (Elt F) → (⟨S100000x128, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub ..⟩

set_option maxRecDepth 8192 in
set_option maxHeartbeats 46400000 in
/-- Every weakly fair execution of the reference terminates; its result array is then the network of the argument
    arrays, and the argument arrays are as launched. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v87) = Cert.Gcn.net (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v87).trans (by after_results_simp <;> rfl),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl)⟩)
    (run_seq scopedRefs_eq scopedSems_eq defs main (fun _ => ops) main_eq (fun _ => ops_sub) m ρ)

end Cert.ReferenceIdeal.HostRun

end
-- ==== Proof.LibPlainDot.lean ====
/-
  A plain matrix product read at an entry. For the dimension numbers of an [M, K] by [K, N] product (no batch axis,
  the left operand contracted on its last axis and the right on its first) the entry (p, q) of the product is
  ∑ₖ l(p, k) · r(k, q) over k : Fin K — for a tpu.matmul into the zero accumulator and for the host's dot_general alike,
  at the ideal values. General in the three extents and in the operands' formats; a printed record of these dimension
  numbers is DotDims.plain M K N up to the proof it carries, so it is passed with the equation (by rfl).
-/
import Idealize.ShloMosaic.PureOps.Ideal.Laws
import Idealize.ShloMosaic.Lib.ValueIdx

namespace Idealize.ShloMosaic.ValueIdx

/-- The left operand's row is the output's row, whatever the contraction index. -/
theorem plain_lhs_row {M K N : ℕ} (j : (⟨2, ![M, N]⟩ : Shape).Idx) (c : (DotDims.plain M K N).contr.Idx) :
    ((DotDims.plain M K N).lhsIdx j c 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The right operand's column is the output's column, whatever the contraction index. -/
theorem plain_rhs_col {M K N : ℕ} (j : (⟨2, ![M, N]⟩ : Shape).Idx) (c : (DotDims.plain M K N).contr.Idx) :
    ((DotDims.plain M K N).rhsIdx j c 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The left operand's index at output (p, q) and contraction coordinate k is (p, k). -/
theorem plain_lhsIdx {M K N : ℕ} (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a; apply Fin.ext
  match a with
  | ⟨0, _⟩ => exact plain_lhs_row (ix2 p q) _
  | ⟨1, _⟩ => exact ((DotDims.plain M K N).lhsIdx_val_of_single (cl := (1 : Fin 2)) rfl (ix2 p q) _).trans hk

/-- The right operand's index at output (p, q) and contraction coordinate k is (k, q). -/
theorem plain_rhsIdx {M K N : ℕ} (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a; apply Fin.ext
  match a with
  | ⟨0, _⟩ => exact ((DotDims.plain M K N).rhsIdx_val_of_single (cr := (0 : Fin 2)) rfl (ix2 p q) _).trans hk
  | ⟨1, _⟩ => exact plain_rhs_col (ix2 p q) _

/-- The product's sum over the contraction index, re-indexed by the contracted coordinate. -/
theorem sum_plain {M K N : ℕ} (l : (⟨2, ![M, K]⟩ : Shape).Idx → EReal) (r : (⟨2, ![K, N]⟩ : Shape).Idx → EReal)
    (p : Fin M) (q : Fin N) :
    ∑ k : (DotDims.plain M K N).contr.Idx, l ((DotDims.plain M K N).lhsIdx (ix2 p q) k) * r ((DotDims.plain M K N).rhsIdx (ix2 p q) k)
      = ∑ k : Fin K, l (ix2 p k) * r (ix2 k q) := by
  rw [← Equiv.sum_comp (contrEquiv1 (DotDims.plain M K N) K rfl rfl).symm]
  exact Finset.sum_congr rfl fun k _ => by rw [plain_lhsIdx, plain_rhsIdx]

/-- A tpu.matmul of these dimension numbers into the zero accumulator, at entry (p, q). -/
theorem matmul_plain_zero_apply {M K N : ℕ} {φ₁ φ₂ : FTy} (d : DotDims ⟨2, ![M, K]⟩ ⟨2, ![K, N]⟩ ⟨2, ![M, N]⟩)
    (hd : d = DotDims.plain M K N) (prec : Option ContractPrecision)
    (lhs : FVec Ideal ⟨2, ![M, K]⟩ φ₁) (rhs : FVec Ideal ⟨2, ![K, N]⟩ φ₂) (p : Fin M) (q : Fin N) :
    FloatOps.matmul d prec lhs rhs (constant ⟨2, ![M, N]⟩ .f32 0x00000000#32) (ix2 p q)
      = ∑ k : Fin K, lhs (ix2 p k) * rhs (ix2 k q) := by
  subst hd
  exact (Ideal.matmul_constant_zero_apply _ prec lhs rhs (ix2 p q)).trans (sum_plain lhs rhs p q)

/-- The host's dot_general of these dimension numbers, at entry (p, q). -/
theorem dotGeneral_plain_apply {M K N : ℕ} {φ₁ φ₂ : FTy} (d : DotDims ⟨2, ![M, K]⟩ ⟨2, ![K, N]⟩ ⟨2, ![M, N]⟩)
    (hd : d = DotDims.plain M K N) (prec : Option ContractPrecision) (sched : HostSchedule)
    (lhs : FVec Ideal ⟨2, ![M, K]⟩ φ₁) (rhs : FVec Ideal ⟨2, ![K, N]⟩ φ₂) (p : Fin M) (q : Fin N) :
    FloatOps.dotGeneral d prec sched lhs rhs (ix2 p q) = ∑ k : Fin K, lhs (ix2 p k) * rhs (ix2 k q) := by
  subst hd
  exact (Ideal.dotGeneral_apply _ prec sched lhs rhs (ix2 p q)).trans (sum_plain lhs rhs p q)

end Idealize.ShloMosaic.ValueIdx
-- ==== Proof.Tile0.lean ====
/-
  Region 0 of the idealized kernel: a 100000 × 128 array times a 128 × 128 matrix, computed in 20 tiles of 5000 rows.
  A tile loads its 5000 rows and the whole matrix, rounds both to bf16 (the identity on the extended reals) and
  multiplies them into a zero accumulator: entry (p, q) of the tile is the sum over k of row p at k times the matrix at
  (k, q). Tile t writes rows 5000·t … 5000·t + 4999 of the result, so the tiles cover the result and every entry of it
  is the same sum, read from the whole arrays.
-/
import proofs.«142823_j27324581937692_1_alg».proof.Proof.Gen.KernelIdeal.Frame
import proofs.«142823_j27324581937692_1_alg».proof.Proof.LibPlainDot
import Idealize.ShloMosaic.Lib.Pipeline.Value
import Idealize.ShloMosaic.Lib.ValueIdx
import Idealize.ShloMosaic.PureOps.Ideal.Laws

set_option maxRecDepth 16384

noncomputable section

namespace Cert.KernelIdeal.Tile0

open Cert.KernelIdeal Cert.KernelIdeal.Gen Idealize.ShloMosaic Idealize.ShloMosaic.TcCoe Idealize.ShloMosaic.ValueIdx Idealize.SL.Sem
open Idealize.ShloMosaic.Pipeline (Dat Cfg Window)

/-- The product of an array of 100000 rows of 128 with a 128 × 128 matrix, entry by entry: the sum over the 128 shared
    positions. -/
def rowsTimes (x : S100000x128.Idx → EReal) (w : S128x128.Idx → EReal) : S100000x128.Idx → EReal :=
  fun i => ∑ k : Fin 128, x (ix2 (n0 := 100000) (n1 := 128) ⟨(i 0).val, (i 0).isLt⟩ k) * w (ix2 (n0 := 128) (n1 := 128) k ⟨(i 1).val, (i 1).isLt⟩)

/-- A tile's product at an entry: the rounding to bf16 is the identity on the extended reals, and the product into a
    zero accumulator is the plain sum over the shared position. -/
theorem tile_apply (x : Vec Ideal S5000x128 .f32) (w : Vec Ideal S128x128 .f32) (p : Fin 5000) (q : Fin 128) :
    k0_pay1 (F := Ideal) x w (ix2 p q) = ∑ k : Fin 128, x (ix2 p k) * w (ix2 k q) := by
  unfold k0_pay1
  exact matmul_plain_zero_apply dot_S5000x128_S128x128_S5000x128_1_0_0_1_n_n rfl none _ _ p q

variable (V : (c : Dev nD) → (b : Ref sig .tc) → Buf (Elt Ideal) ((c : Thread nD τ).loc b))

theorem origin : (![0, 0] : Fin 2 → Nat) = fun _ => 0 := funext fun a => by fin_cases a <;> rfl

/-- Where the three windows' blocks sit at tile t: the rows window and the result window at block row t, block column
    0; the matrix window always at its one block. -/
theorem block_places : ∀ t : Fin cfg0.N, win0_0.index t (0 : Fin 2) = t.val
    ∧ win0_0.index t (1 : Fin 2) = 0 ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What tile t writes back is its block of the whole product. -/
theorem flushed_eq (c : Dev nD) (t : Fin cfg0.N) :
    (dat0 V c).flushed 2 t = ((cfg0.win 2).blk t).view.read (Elt Ideal) (rowsTimes (V c main_arg0) (V c main_arg2)) := by
  show (cfg0.win 2).cut (grid0.coords t) ((dat0 V c).after 2 t) = _
  rw [after0_2]
  unfold out0_2
  rw [View.canon_unit_zero origin]
  simp only [View.ld_unit_zero (S := S5000x128) origin, View.ld_unit_zero (S := S128x128) origin]
  obtain ⟨e0, e1, e2, e3, e4, e5⟩ := block_places t
  funext j
  obtain ⟨p, q, rfl⟩ : ∃ (p : Fin 5000) (q : Fin 128), j = ix2 p q := ⟨j 0, j 1, eq_ix2 j⟩
  show k0_pay1 (iblk0 V c 0 t) (iblk0 V c 1 t) (ix2 p q) = rowsTimes (V c main_arg0) (V c main_arg2) (((cfg0.win 2).blk t).view.emb (ix2 p q))
  refine (tile_apply _ _ p q).trans ?_
  unfold rowsTimes
  refine Finset.sum_congr rfl fun k _ => ?_
  congr 1
  · show V c main_arg0 (((cfg0.win 0).blk t).view.emb (ix2 p k)) = _
    refine congrArg (V c main_arg0) (funext fun a => Fin.ext ?_)
    match a with
    | ⟨0, _⟩ => show win0_0.index t (0 : Fin 2) * 5000 + 1 * p.val = win0_2.index t (0 : Fin 2) * 5000 + 1 * p.val; omega
    | ⟨1, _⟩ => show win0_0.index t (1 : Fin 2) * 128 + 1 * k.val = k.val; omega
  · show V c main_arg2 (((cfg0.win 1).blk t).view.emb (ix2 k q)) = _
    refine congrArg (V c main_arg2) (funext fun a => Fin.ext ?_)
    match a with
    | ⟨0, _⟩ => show win0_1.index t (0 : Fin 2) * 128 + 1 * k.val = k.val; omega
    | ⟨1, _⟩ => show win0_1.index t (1 : Fin 2) * 128 + 1 * q.val = win0_2.index t (1 : Fin 2) * 128 + 1 * q.val; omega

/-- An entry of the result is in tile t's block iff each coordinate is in the block's range on its axis. -/
theorem mem_block (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v30).slice (win0_2.rect t)).set ↔ _
  rw [View.set_slice_whole, Rect.mem_set_unit]
  exact Iff.rfl

/-- Every entry of the result is in some tile's block: row r is in tile r / 5000. -/
theorem covered (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 20 := N_0
  obtain ⟨t, ht⟩ : ∃ t : Fin cfg0.N, t.val = (i 0).val / 5000 := ⟨⟨(i 0).val / 5000, by rw [hN]; omega⟩, rfl⟩
  obtain ⟨e0, e1, e2, e3, e4, e5⟩ := block_places t
  refine ⟨t, flush0_2 t, ?_⟩
  rw [mem_block]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- The result array after the region: the whole product of the two arrays the region found. -/
theorem final (c : Dev nD) : (dat0 V c).arrAt 2 cfg0.N = rowsTimes (V c main_arg0) (V c main_arg2) :=
  (dat0 V c).arrAt_eq_of_cover 2 _ (fun t _ => flushed_eq V c t) covered

end Cert.KernelIdeal.Tile0

end
-- ==== Proof.Tile1.lean ====
/-
  Region 1 of the idealized kernel: a bias row of 128 entries added to every row of a 100000 × 128 array, then the
  maximum with zero, computed in 20 tiles of 5000 rows. A tile loads its 5000 rows and the one bias row, repeats the
  row down the tile and adds, and takes the maximum with a splat zero: entry (p, q) of the tile is the tile's entry (p, q) plus the
  bias at q, or zero if that is larger. Tile t writes rows 5000·t … 5000·t + 4999 of the result, so the tiles cover the result and every
  entry of it is that same expression of the whole array and the bias row.
-/
import proofs.«142823_j27324581937692_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Tile1

open Cert.KernelIdeal Cert.KernelIdeal.Gen Idealize.ShloMosaic Idealize.ShloMosaic.TcCoe Idealize.ShloMosaic.ValueIdx Idealize.SL.Sem
open Idealize.ShloMosaic.Pipeline (Dat Cfg Window)

/-- Every row of a 100000 × 128 array plus a bias row, then the maximum with zero, entry by entry. -/
def rowsPlus (a : S100000x128.Idx → EReal) (b : S1x128.Idx → EReal) : S100000x128.Idx → EReal :=
  fun i => max (a i + b (ix2 (n0 := 1) (n1 := 128) 0 ⟨(i 1).val, (i 1).isLt⟩)) (Ideal.ofBits .f32 0x00000000#32)

/-- The bias row repeated down a tile, at an entry: the row's entry of that column. -/
theorem spread_apply (b : S1x128.Idx → EReal) (p : Fin 5000) (q : Fin 128) :
    broadcastTo S5000x128 b broadcasts_S1x128_S5000x128 (ix2 p q) = b (ix2 (0 : Fin 1) q) :=
  broadcastTo_apply b broadcasts_S1x128_S5000x128 (ix2 p q) (ix2 (0 : Fin 1) q) fun a => by
    match a with
    | ⟨0, _⟩ => show 0 = if (1 : ℕ) = 1 then 0 else _; rw [if_pos rfl]
    | ⟨1, _⟩ => show q.val = if (128 : ℕ) = 1 then 0 else q.val; rw [if_neg (by decide)]

/-- A tile's result at an entry: the casts to the same shape are the identity. -/
theorem tile_apply (x : Vec Ideal S5000x128 .f32) (b : Vec Ideal S1x128 .f32) (p : Fin 5000) (q : Fin 128) :
    k1_pay1 (F := Ideal) x b (ix2 p q) = max (x (ix2 p q) + b (ix2 (0 : Fin 1) q)) (Ideal.ofBits .f32 0x00000000#32) := by
  unfold k1_pay1
  rw [shapeCast_self, shapeCast_self]
  show max (x (ix2 p q) + broadcastTo S5000x128 b broadcasts_S1x128_S5000x128 (ix2 p q)) _ = _
  rw [spread_apply]
  rfl

variable (V : (c : Dev nD) → (b : Ref sig .tc) → Buf (Elt Ideal) ((c : Thread nD τ).loc b))

theorem origin : (![0, 0] : Fin 2 → Nat) = fun _ => 0 := funext fun a => by fin_cases a <;> rfl

/-- Where the three windows' blocks sit at tile t: the rows window and the result window at block row t, block column
    0; the bias window always at its one block. -/
theorem block_places : ∀ t : Fin cfg1.N, win1_0.index t (0 : Fin 2) = t.val
    ∧ win1_0.index t (1 : Fin 2) = 0 ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What tile t writes back is its block of the whole result. -/
theorem flushed_eq (c : Dev nD) (t : Fin cfg1.N) :
    (dat1 V c).flushed 2 t = ((cfg1.win 2).blk t).view.read (Elt Ideal) (rowsPlus (V c main_v43) (V c main_v44)) := by
  show (cfg1.win 2).cut (grid1.coords t) ((dat1 V c).after 2 t) = _
  rw [after1_2]
  unfold out1_2
  rw [View.canon_unit_zero origin]
  simp only [View.ld_unit_zero (S := S5000x128) origin, View.ld_unit_zero (S := S1x128) origin]
  obtain ⟨e0, e1, e2, e3, e4, e5⟩ := block_places t
  funext j
  obtain ⟨p, q, rfl⟩ : ∃ (p : Fin 5000) (q : Fin 128), j = ix2 p q := ⟨j 0, j 1, eq_ix2 j⟩
  show k1_pay1 (iblk1 V c 0 t) (iblk1 V c 1 t) (ix2 p q) = rowsPlus (V c main_v43) (V c main_v44) (((cfg1.win 2).blk t).view.emb (ix2 p q))
  refine (tile_apply _ _ p q).trans ?_
  unfold rowsPlus
  have hrows : iblk1 V c 0 t (ix2 p q) = V c main_v43 (((cfg1.win 2).blk t).view.emb (ix2 p q)) := by
    show V c main_v43 (((cfg1.win 0).blk t).view.emb (ix2 p q)) = _
    refine congrArg (V c main_v43) (funext fun a => Fin.ext ?_)
    match a with
    | ⟨0, _⟩ => show win1_0.index t (0 : Fin 2) * 5000 + 1 * p.val = win1_2.index t (0 : Fin 2) * 5000 + 1 * p.val; omega
    | ⟨1, _⟩ => show win1_0.index t (1 : Fin 2) * 128 + 1 * q.val = win1_2.index t (1 : Fin 2) * 128 + 1 * q.val; omega
  have hbias : iblk1 V c 1 t (ix2 (0 : Fin 1) q) = V c main_v44 (ix2 (n0 := 1) (n1 := 128) 0 ⟨((((cfg1.win 2).blk t).view.emb (ix2 p q)) 1).val, ((((cfg1.win 2).blk t).view.emb (ix2 p q)) 1).isLt⟩) := by
    show V c main_v44 (((cfg1.win 1).blk t).view.emb (ix2 (0 : Fin 1) q)) = _
    refine congrArg (V c main_v44) (funext fun a => Fin.ext ?_)
    match a with
    | ⟨0, _⟩ => show win1_1.index t (0 : Fin 2) * 1 + 1 * 0 = 0; omega
    | ⟨1, _⟩ => show win1_1.index t (1 : Fin 2) * 128 + 1 * q.val = win1_2.index t (1 : Fin 2) * 128 + 1 * q.val; omega
  rw [hrows, hbias]

/-- An entry of the result is in tile t's block iff each coordinate is in the block's range on its axis. -/
theorem mem_block (t : Fin cfg1.N) (i : S100000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v45).slice (win1_2.rect t)).set ↔ _
  rw [View.set_slice_whole, Rect.mem_set_unit]
  exact Iff.rfl

/-- Every entry of the result is in some tile's block: row r is in tile r / 5000. -/
theorem covered (i : S100000x128.Idx) : ∃ t : Fin cfg1.N, (cfg1.win 2).flush t = true ∧ i ∈ ((cfg1.win 2).blk t).view.set := by
  have hi0 : (i 0).val < 100000 := (i 0).isLt
  have hi1 : (i 1).val < 128 := (i 1).isLt
  have hN : cfg1.N = 20 := N_1
  obtain ⟨t, ht⟩ : ∃ t : Fin cfg1.N, t.val = (i 0).val / 5000 := ⟨⟨(i 0).val / 5000, by rw [hN]; omega⟩, rfl⟩
  obtain ⟨e0, e1, e2, e3, e4, e5⟩ := block_places t
  refine ⟨t, flush1_2 t, ?_⟩
  rw [mem_block]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

/-- The result array after the region: the whole expression of the two arrays the region found. -/
theorem final (c : Dev nD) : (dat1 V c).arrAt 2 cfg1.N = rowsPlus (V c main_v43) (V c main_v44) :=
  (dat1 V c).arrAt_eq_of_cover 2 _ (fun t _ => flushed_eq V c t) covered

end Cert.KernelIdeal.Tile1

end
-- ==== Proof.Tile2.lean ====
/-
  Region 2 of the idealized kernel: a 100000 × 128 array times a 128 × 128 matrix, computed in 20 tiles of 5000 rows.
  A tile loads its 5000 rows and the whole matrix, rounds both to bf16 (the identity on the extended reals) and
  multiplies them into a zero accumulator: entry (p, q) of the tile is the sum over k of row p at k times the matrix at
  (k, q). Tile t writes rows 5000·t … 5000·t + 4999 of the result, so the tiles cover the result and every entry of it
  is the same sum, read from the whole arrays.
-/
import proofs.«142823_j27324581937692_1_alg».proof.Proof.Gen.KernelIdeal.Frame
import proofs.«142823_j27324581937692_1_alg».proof.Proof.LibPlainDot
import Idealize.ShloMosaic.Lib.Pipeline.Value
import Idealize.ShloMosaic.Lib.ValueIdx
import Idealize.ShloMosaic.PureOps.Ideal.Laws

set_option maxRecDepth 16384

noncomputable section

namespace Cert.KernelIdeal.Tile2

open Cert.KernelIdeal Cert.KernelIdeal.Gen Idealize.ShloMosaic Idealize.ShloMosaic.TcCoe Idealize.ShloMosaic.ValueIdx Idealize.SL.Sem
open Idealize.ShloMosaic.Pipeline (Dat Cfg Window)

/-- The product of an array of 100000 rows of 128 with a 128 × 128 matrix, entry by entry: the sum over the 128 shared
    positions. -/
def rowsTimes (x : S100000x128.Idx → EReal) (w : S128x128.Idx → EReal) : S100000x128.Idx → EReal :=
  fun i => ∑ k : Fin 128, x (ix2 (n0 := 100000) (n1 := 128) ⟨(i 0).val, (i 0).isLt⟩ k) * w (ix2 (n0 := 128) (n1 := 128) k ⟨(i 1).val, (i 1).isLt⟩)

/-- A tile's product at an entry: the rounding to bf16 is the identity on the extended reals, and the product into a
    zero accumulator is the plain sum over the shared position. -/
theorem tile_apply (x : Vec Ideal S5000x128 .f32) (w : Vec Ideal S128x128 .f32) (p : Fin 5000) (q : Fin 128) :
    k2_pay1 (F := Ideal) x w (ix2 p q) = ∑ k : Fin 128, x (ix2 p k) * w (ix2 k q) := by
  unfold k2_pay1
  rw [shapeCast_self]
  exact matmul_plain_zero_apply dot_S5000x128_S128x128_S5000x128_1_0_0_1_n_n rfl none _ _ p q

variable (V : (c : Dev nD) → (b : Ref sig .tc) → Buf (Elt Ideal) ((c : Thread nD τ).loc b))

theorem origin : (![0, 0] : Fin 2 → Nat) = fun _ => 0 := funext fun a => by fin_cases a <;> rfl

/-- Where the three windows' blocks sit at tile t: the rows window and the result window at block row t, block column
    0; the matrix window always at its one block. -/
theorem block_places : ∀ t : Fin cfg2.N, win2_0.index t (0 : Fin 2) = t.val
    ∧ win2_0.index t (1 : Fin 2) = 0 ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What tile t writes back is its block of the whole product. -/
theorem flushed_eq (c : Dev nD) (t : Fin cfg2.N) :
    (dat2 V c).flushed 2 t = ((cfg2.win 2).blk t).view.read (Elt Ideal) (rowsTimes (V c main_v45) (V c main_arg4)) := by
  show (cfg2.win 2).cut (grid2.coords t) ((dat2 V c).after 2 t) = _
  rw [after2_2]
  unfold out2_2
  rw [View.canon_unit_zero origin]
  simp only [View.ld_unit_zero (S := S5000x128) origin, View.ld_unit_zero (S := S128x128) origin]
  obtain ⟨e0, e1, e2, e3, e4, e5⟩ := block_places t
  funext j
  obtain ⟨p, q, rfl⟩ : ∃ (p : Fin 5000) (q : Fin 128), j = ix2 p q := ⟨j 0, j 1, eq_ix2 j⟩
  show k2_pay1 (iblk2 V c 0 t) (iblk2 V c 1 t) (ix2 p q) = rowsTimes (V c main_v45) (V c main_arg4) (((cfg2.win 2).blk t).view.emb (ix2 p q))
  refine (tile_apply _ _ p q).trans ?_
  unfold rowsTimes
  refine Finset.sum_congr rfl fun k _ => ?_
  congr 1
  · show V c main_v45 (((cfg2.win 0).blk t).view.emb (ix2 p k)) = _
    refine congrArg (V c main_v45) (funext fun a => Fin.ext ?_)
    match a with
    | ⟨0, _⟩ => show win2_0.index t (0 : Fin 2) * 5000 + 1 * p.val = win2_2.index t (0 : Fin 2) * 5000 + 1 * p.val; omega
    | ⟨1, _⟩ => show win2_0.index t (1 : Fin 2) * 128 + 1 * k.val = k.val; omega
  · show V c main_arg4 (((cfg2.win 1).blk t).view.emb (ix2 k q)) = _
    refine congrArg (V c main_arg4) (funext fun a => Fin.ext ?_)
    match a with
    | ⟨0, _⟩ => show win2_1.index t (0 : Fin 2) * 128 + 1 * k.val = k.val; omega
    | ⟨1, _⟩ => show win2_1.index t (1 : Fin 2) * 128 + 1 * q.val = win2_2.index t (1 : Fin 2) * 128 + 1 * q.val; omega

/-- An entry of the result is in tile t's block iff each coordinate is in the block's range on its axis. -/
theorem mem_block (t : Fin cfg2.N) (i : S100000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v46).slice (win2_2.rect t)).set ↔ _
  rw [View.set_slice_whole, Rect.mem_set_unit]
  exact Iff.rfl

/-- Every entry of the result is in some tile's block: row r is in tile r / 5000. -/
theorem covered (i : S100000x128.Idx) : ∃ t : Fin cfg2.N, (cfg2.win 2).flush t = true ∧ i ∈ ((cfg2.win 2).blk t).view.set := by
  have hi0 : (i 0).val < 100000 := (i 0).isLt
  have hi1 : (i 1).val < 128 := (i 1).isLt
  have hN : cfg2.N = 20 := N_2
  obtain ⟨t, ht⟩ : ∃ t : Fin cfg2.N, t.val = (i 0).val / 5000 := ⟨⟨(i 0).val / 5000, by rw [hN]; omega⟩, rfl⟩
  obtain ⟨e0, e1, e2, e3, e4, e5⟩ := block_places t
  refine ⟨t, flush2_2 t, ?_⟩
  rw [mem_block]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 128 ≤ (i 1).val ∧ (i 1).val < win2_2.index t (1 : Fin 2) * 128 + 128; omega

/-- The result array after the region: the whole product of the two arrays the region found. -/
theorem final (c : Dev nD) : (dat2 V c).arrAt 2 cfg2.N = rowsTimes (V c main_v45) (V c main_arg4) :=
  (dat2 V c).arrAt_eq_of_cover 2 _ (fun t _ => flushed_eq V c t) covered

end Cert.KernelIdeal.Tile2

end
-- ==== Proof.Tile3.lean ====
/-
  Region 3 of the idealized kernel: a bias row of 128 entries added to every row of a 100000 × 128 array, computed in 20 tiles of 5000 rows. A tile loads its 5000 rows and the one bias row, repeats the
  row down the tile and adds: entry (p, q) of the tile is the tile's entry (p, q) plus the
  bias at q. Tile t writes rows 5000·t … 5000·t + 4999 of the result, so the tiles cover the result and every
  entry of it is that same expression of the whole array and the bias row.
-/
import proofs.«142823_j27324581937692_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Tile3

open Cert.KernelIdeal Cert.KernelIdeal.Gen Idealize.ShloMosaic Idealize.ShloMosaic.TcCoe Idealize.ShloMosaic.ValueIdx Idealize.SL.Sem
open Idealize.ShloMosaic.Pipeline (Dat Cfg Window)

/-- Every row of a 100000 × 128 array plus a bias row, entry by entry. -/
def rowsPlus (a : S100000x128.Idx → EReal) (b : S1x128.Idx → EReal) : S100000x128.Idx → EReal :=
  fun i => a i + b (ix2 (n0 := 1) (n1 := 128) 0 ⟨(i 1).val, (i 1).isLt⟩)

/-- The bias row repeated down a tile, at an entry: the row's entry of that column. -/
theorem spread_apply (b : S1x128.Idx → EReal) (p : Fin 5000) (q : Fin 128) :
    broadcastTo S5000x128 b broadcasts_S1x128_S5000x128 (ix2 p q) = b (ix2 (0 : Fin 1) q) :=
  broadcastTo_apply b broadcasts_S1x128_S5000x128 (ix2 p q) (ix2 (0 : Fin 1) q) fun a => by
    match a with
    | ⟨0, _⟩ => show 0 = if (1 : ℕ) = 1 then 0 else _; rw [if_pos rfl]
    | ⟨1, _⟩ => show q.val = if (128 : ℕ) = 1 then 0 else q.val; rw [if_neg (by decide)]

/-- A tile's result at an entry: the casts to the same shape are the identity. -/
theorem tile_apply (x : Vec Ideal S5000x128 .f32) (b : Vec Ideal S1x128 .f32) (p : Fin 5000) (q : Fin 128) :
    k3_pay1 (F := Ideal) x b (ix2 p q) = x (ix2 p q) + b (ix2 (0 : Fin 1) q) := by
  unfold k3_pay1
  rw [shapeCast_self, shapeCast_self]
  show x (ix2 p q) + broadcastTo S5000x128 b broadcasts_S1x128_S5000x128 (ix2 p q) = _
  rw [spread_apply]

variable (V : (c : Dev nD) → (b : Ref sig .tc) → Buf (Elt Ideal) ((c : Thread nD τ).loc b))

theorem origin : (![0, 0] : Fin 2 → Nat) = fun _ => 0 := funext fun a => by fin_cases a <;> rfl

/-- Where the three windows' blocks sit at tile t: the rows window and the result window at block row t, block column
    0; the bias window always at its one block. -/
theorem block_places : ∀ t : Fin cfg3.N, win3_0.index t (0 : Fin 2) = t.val
    ∧ win3_0.index t (1 : Fin 2) = 0 ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What tile t writes back is its block of the whole result. -/
theorem flushed_eq (c : Dev nD) (t : Fin cfg3.N) :
    (dat3 V c).flushed 2 t = ((cfg3.win 2).blk t).view.read (Elt Ideal) (rowsPlus (V c main_v59) (V c main_v60)) := by
  show (cfg3.win 2).cut (grid3.coords t) ((dat3 V c).after 2 t) = _
  rw [after3_2]
  unfold out3_2
  rw [View.canon_unit_zero origin]
  simp only [View.ld_unit_zero (S := S5000x128) origin, View.ld_unit_zero (S := S1x128) origin]
  obtain ⟨e0, e1, e2, e3, e4, e5⟩ := block_places t
  funext j
  obtain ⟨p, q, rfl⟩ : ∃ (p : Fin 5000) (q : Fin 128), j = ix2 p q := ⟨j 0, j 1, eq_ix2 j⟩
  show k3_pay1 (iblk3 V c 0 t) (iblk3 V c 1 t) (ix2 p q) = rowsPlus (V c main_v59) (V c main_v60) (((cfg3.win 2).blk t).view.emb (ix2 p q))
  refine (tile_apply _ _ p q).trans ?_
  unfold rowsPlus
  have hrows : iblk3 V c 0 t (ix2 p q) = V c main_v59 (((cfg3.win 2).blk t).view.emb (ix2 p q)) := by
    show V c main_v59 (((cfg3.win 0).blk t).view.emb (ix2 p q)) = _
    refine congrArg (V c main_v59) (funext fun a => Fin.ext ?_)
    match a with
    | ⟨0, _⟩ => show win3_0.index t (0 : Fin 2) * 5000 + 1 * p.val = win3_2.index t (0 : Fin 2) * 5000 + 1 * p.val; omega
    | ⟨1, _⟩ => show win3_0.index t (1 : Fin 2) * 128 + 1 * q.val = win3_2.index t (1 : Fin 2) * 128 + 1 * q.val; omega
  have hbias : iblk3 V c 1 t (ix2 (0 : Fin 1) q) = V c main_v60 (ix2 (n0 := 1) (n1 := 128) 0 ⟨((((cfg3.win 2).blk t).view.emb (ix2 p q)) 1).val, ((((cfg3.win 2).blk t).view.emb (ix2 p q)) 1).isLt⟩) := by
    show V c main_v60 (((cfg3.win 1).blk t).view.emb (ix2 (0 : Fin 1) q)) = _
    refine congrArg (V c main_v60) (funext fun a => Fin.ext ?_)
    match a with
    | ⟨0, _⟩ => show win3_1.index t (0 : Fin 2) * 1 + 1 * 0 = 0; omega
    | ⟨1, _⟩ => show win3_1.index t (1 : Fin 2) * 128 + 1 * q.val = win3_2.index t (1 : Fin 2) * 128 + 1 * q.val; omega
  rw [hrows, hbias]

/-- An entry of the result is in tile t's block iff each coordinate is in the block's range on its axis. -/
theorem mem_block (t : Fin cfg3.N) (i : S100000x128.Idx) :
    i ∈ ((cfg3.win 2).blk t).view.set ↔ ∀ a : Fin 2, win3_2.index t a * S5000x128.size a ≤ (i a).val ∧ (i a).val < win3_2.index t a * S5000x128.size a + S5000x128.size a := by
  show i ∈ ((View.whole main_v61).slice (win3_2.rect t)).set ↔ _
  rw [View.set_slice_whole, Rect.mem_set_unit]
  exact Iff.rfl

/-- Every entry of the result is in some tile's block: row r is in tile r / 5000. -/
theorem covered (i : S100000x128.Idx) : ∃ t : Fin cfg3.N, (cfg3.win 2).flush t = true ∧ i ∈ ((cfg3.win 2).blk t).view.set := by
  have hi0 : (i 0).val < 100000 := (i 0).isLt
  have hi1 : (i 1).val < 128 := (i 1).isLt
  have hN : cfg3.N = 20 := N_3
  obtain ⟨t, ht⟩ : ∃ t : Fin cfg3.N, t.val = (i 0).val / 5000 := ⟨⟨(i 0).val / 5000, by rw [hN]; omega⟩, rfl⟩
  obtain ⟨e0, e1, e2, e3, e4, e5⟩ := block_places t
  refine ⟨t, flush3_2 t, ?_⟩
  rw [mem_block]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 128 ≤ (i 1).val ∧ (i 1).val < win3_2.index t (1 : Fin 2) * 128 + 128; omega

/-- The result array after the region: the whole expression of the two arrays the region found. -/
theorem final (c : Dev nD) : (dat3 V c).arrAt 2 cfg3.N = rowsPlus (V c main_v59) (V c main_v60) :=
  (dat3 V c).arrAt_eq_of_cover 2 _ (fun t _ => flushed_eq V c t) covered

end Cert.KernelIdeal.Tile3

end
-- ==== Proof.LibBroadcastInDim.lean ====
/-
  `broadcast_in_dim` read at an index, for the layouts a host program meets when it spreads a per-row or per-column
  quantity over a matrix: a scalar splat to any shape; a vector `[a]` laid out as the column `[a, 1]` or `[b]` as the
  row `[1, b]`; the column and the row spread to `[a, b]`; a vector `[c]` laid out as `[1, 1, c]` and spread to
  `[a, b, c]`. General in the extents and in the element type: each result entry reads the one operand entry that
  shares its coordinates on the axes the operand keeps.
-/
import Idealize.ShloMosaic.Lib.Pipeline.Value
import Idealize.ShloMosaic.Lib.ValueIdx

namespace Idealize.ShloMosaic.ValueIdx

variable {α : Type}

/-- A scalar splat reads the scalar everywhere. -/
theorem broadcastInDim_scalar_apply {t : Shape} (x : (⟨0, ![]⟩ : Shape).Idx → α) (dims : Fin 0 → Fin t.rank)
    (h : (⟨0, ![]⟩ : Shape).BroadcastsInDim t dims) (j : t.Idx) : broadcastInDim t dims h x j = x ix0 :=
  broadcastInDim_apply dims h x j ix0 fun a => a.elim0

/-- A vector `[a]` as the column `[a, 1]`: entry `(i, u)` is the vector's entry `i`. -/
theorem broadcastInDim_a_a1_apply {a : ℕ} (x : (⟨1, ![a]⟩ : Shape).Idx → α)
    (h : (⟨1, ![a]⟩ : Shape).BroadcastsInDim ⟨2, ![a, 1]⟩ (![0] : Fin 1 → Fin 2)) (i : Fin a) (u : Fin 1) :
    broadcastInDim ⟨2, ![a, 1]⟩ ![0] h x (ix2 i u) = x (ix1 i) := by
  refine broadcastInDim_apply _ h x _ (ix1 i) fun ax => ?_
  match ax with
  | ⟨0, _⟩ =>
    show i.val = if a = 1 then 0 else i.val
    split
    · have := i.isLt; omega
    · rfl

/-- A column `[a, 1]` spread to `[a, b]`: entry `(p, c)` is the column's entry of row `p`. -/
theorem broadcastInDim_a1_ab_apply {a b : ℕ} (x : (⟨2, ![a, 1]⟩ : Shape).Idx → α)
    (h : (⟨2, ![a, 1]⟩ : Shape).BroadcastsInDim ⟨2, ![a, b]⟩ (![0, 1] : Fin 2 → Fin 2)) (p : Fin a) (c : Fin b) :
    broadcastInDim ⟨2, ![a, b]⟩ ![0, 1] h x (ix2 p c) = x (ix2 p (0 : Fin 1)) := by
  refine broadcastInDim_apply _ h x _ (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

/-- A vector `[b]` as the row `[1, b]`: entry `(u, c)` is the vector's entry `c`. -/
theorem broadcastInDim_b_1b_apply {b : ℕ} (x : (⟨1, ![b]⟩ : Shape).Idx → α)
    (h : (⟨1, ![b]⟩ : Shape).BroadcastsInDim ⟨2, ![1, b]⟩ (![1] : Fin 1 → Fin 2)) (u : Fin 1) (c : Fin b) :
    broadcastInDim ⟨2, ![1, b]⟩ ![1] h x (ix2 u c) = x (ix1 c) := by
  refine broadcastInDim_apply _ h x _ (ix1 c) fun ax => ?_
  match ax with
  | ⟨0, _⟩ =>
    show c.val = if b = 1 then 0 else c.val
    split
    · have := c.isLt; omega
    · rfl

/-- A row `[1, b]` spread to `[a, b]`: entry `(p, c)` is the row's entry `c`. -/
theorem broadcastInDim_1b_ab_apply {a b : ℕ} (x : (⟨2, ![1, b]⟩ : Shape).Idx → α)
    (h : (⟨2, ![1, b]⟩ : Shape).BroadcastsInDim ⟨2, ![a, b]⟩ (![0, 1] : Fin 2 → Fin 2)) (p : Fin a) (c : Fin b) :
    broadcastInDim ⟨2, ![a, b]⟩ ![0, 1] h x (ix2 p c) = x (ix2 (0 : Fin 1) c) := by
  refine broadcastInDim_apply _ h x _ (ix2 (0 : Fin 1) c) fun ax => ?_
  match ax with
  | ⟨0, _⟩ =>
    show 0 = if (1 : ℕ) = 1 then 0 else p.val
    rw [if_pos rfl]
  | ⟨1, _⟩ =>
    show c.val = if b = 1 then 0 else c.val
    split
    · have := c.isLt; omega
    · rfl

/-- A vector `[c]` as `[1, 1, c]`: entry `(u, v, k)` is the vector's entry `k`. -/
theorem broadcastInDim_c_11c_apply {c : ℕ} (x : (⟨1, ![c]⟩ : Shape).Idx → α)
    (h : (⟨1, ![c]⟩ : Shape).BroadcastsInDim ⟨3, ![1, 1, c]⟩ (![2] : Fin 1 → Fin 3)) (u v : Fin 1) (k : Fin c) :
    broadcastInDim ⟨3, ![1, 1, c]⟩ ![2] h x (ix3 u v k) = x (ix1 k) := by
  refine broadcastInDim_apply _ h x _ (ix1 k) fun ax => ?_
  match ax with
  | ⟨0, _⟩ =>
    show k.val = if c = 1 then 0 else k.val
    split
    · have := k.isLt; omega
    · rfl

/-- `[1, 1, c]` spread to `[a, b, c]`: entry `(p, q, k)` is the operand's entry `(0, 0, k)`. -/
theorem broadcastInDim_11c_abc_apply {a b c : ℕ} (x : (⟨3, ![1, 1, c]⟩ : Shape).Idx → α)
    (h : (⟨3, ![1, 1, c]⟩ : Shape).BroadcastsInDim ⟨3, ![a, b, c]⟩ (![0, 1, 2] : Fin 3 → Fin 3)) (p : Fin a) (q : Fin b) (k : Fin c) :
    broadcastInDim ⟨3, ![a, b, c]⟩ ![0, 1, 2] h x (ix3 p q k) = x (ix3 (0 : Fin 1) (0 : Fin 1) k) := by
  refine broadcastInDim_apply _ h x _ (ix3 (0 : Fin 1) (0 : Fin 1) k) fun ax => ?_
  match ax with
  | ⟨0, _⟩ =>
    show 0 = if (1 : ℕ) = 1 then 0 else p.val
    rw [if_pos rfl]
  | ⟨1, _⟩ =>
    show 0 = if (1 : ℕ) = 1 then 0 else q.val
    rw [if_pos rfl]
  | ⟨2, _⟩ =>
    show k.val = if c = 1 then 0 else k.val
    split
    · have := k.isLt; omega
    · rfl

end Idealize.ShloMosaic.ValueIdx
-- ==== Proof.Bridges.lean ====
/-
  The tiles' whole-array functions are the host stages they stand for, on the extended reals. A product of a
  100000 × 128 array with a 128 × 128 matrix is, entry by entry, the sum over the shared position whether it is computed
  by tiles or by one dot_general. A bias of 128 entries reshaped to a row [1, 128] and added to every row is the bias
  broadcast to [1, 128] and then to [100000, 128] and added; the maximum with a splat zero is the maximum with the
  broadcast zero array.
-/
import proofs.«142823_j27324581937692_1_alg».proof.Proof.Stages
import proofs.«142823_j27324581937692_1_alg».proof.Proof.Tile0
import proofs.«142823_j27324581937692_1_alg».proof.Proof.Tile1
import proofs.«142823_j27324581937692_1_alg».proof.Proof.Tile2
import proofs.«142823_j27324581937692_1_alg».proof.Proof.Tile3
import proofs.«142823_j27324581937692_1_alg».proof.Proof.LibPlainDot
import proofs.«142823_j27324581937692_1_alg».proof.Proof.LibBroadcastInDim

noncomputable section

namespace Cert.Bridge

open Idealize.ShloMosaic Idealize.ShloMosaic.ValueIdx

/-- The first product, by tiles, is the reference's whole product. -/
theorem rowsTimes0_eq (x : FVec Ideal Cert.KernelIdeal.S100000x128 .f32) (w : FVec Ideal Cert.KernelIdeal.S128x128 .f32) :
    Cert.KernelIdeal.Tile0.rowsTimes x w = Cert.Gcn.dense (F := Ideal) x w := by
  funext i
  obtain ⟨p, q, rfl⟩ : ∃ (p : Fin 100000) (q : Fin 128), i = ix2 p q := ⟨i 0, i 1, eq_ix2 i⟩
  exact (dotGeneral_plain_apply Cert.ReferenceIdeal.dot_S100000x128_S128x128_S100000x128_1_0_0_1_n_n rfl none _ x w p q).symm

/-- The second product, by tiles, is the reference's whole product. -/
theorem rowsTimes2_eq (x : FVec Ideal Cert.KernelIdeal.S100000x128 .f32) (w : FVec Ideal Cert.KernelIdeal.S128x128 .f32) :
    Cert.KernelIdeal.Tile2.rowsTimes x w = Cert.Gcn.dense (F := Ideal) x w := by
  funext i
  obtain ⟨p, q, rfl⟩ : ∃ (p : Fin 100000) (q : Fin 128), i = ix2 p q := ⟨i 0, i 1, eq_ix2 i⟩
  exact (dotGeneral_plain_apply Cert.ReferenceIdeal.dot_S100000x128_S128x128_S100000x128_1_0_0_1_n_n rfl none _ x w p q).symm

/-- A bias reshaped to a row, at the row's entry q: the bias at q. -/
theorem rowCast_apply (b : FVec Ideal Cert.KernelIdeal.S128 .f32) (q : Fin 128) :
    shapeCast Cert.KernelIdeal.S1x128 b Cert.KernelIdeal.Facts₀.shapeCasts_S128_S1x128 (ix2 (0 : Fin 1) q) = b (ix1 q) := by
  refine (shapeCast_addUnit_apply ![128] b _ (ix2 (0 : Fin 1) q)).trans ?_
  refine congrArg b (funext fun a => ?_)
  match a with
  | ⟨0, _⟩ => rfl

/-- The bias broadcast to a row and then to every node, at an entry: the bias at the entry's column. -/
theorem biasRows_apply (b : FVec Ideal Cert.ReferenceIdeal.S128 .f32) (p : Fin 100000) (q : Fin 128) :
    Cert.Gcn.biasRows (F := Ideal) b (ix2 p q) = b (ix1 q) := by
  unfold Cert.Gcn.biasRows
  refine (broadcastInDim_1b_ab_apply _ _ p q).trans ?_
  exact broadcastInDim_b_1b_apply _ _ 0 q

/-- The broadcast zero array, at an entry: the zero word's value. -/
theorem zeroRows_apply (p : Fin 100000) (q : Fin 128) :
    Cert.Gcn.zeroRows (F := Ideal) (ix2 p q) = Ideal.ofBits .f32 0x00000000#32 := by
  unfold Cert.Gcn.zeroRows
  exact (broadcastInDim_scalar_apply _ _ _ _).trans rfl

/-- The first bias step, by tiles over the reshaped bias row, is the reference's broadcast bias added and the maximum
    with the zero array. -/
theorem rowsPlus1_eq (a : FVec Ideal Cert.KernelIdeal.S100000x128 .f32) (b : FVec Ideal Cert.KernelIdeal.S128 .f32) :
    Cert.KernelIdeal.Tile1.rowsPlus a (shapeCast Cert.KernelIdeal.S1x128 b Cert.KernelIdeal.Facts₀.shapeCasts_S128_S1x128)
      = maximumf (addf a (Cert.Gcn.biasRows (F := Ideal) b)) (Cert.Gcn.zeroRows (F := Ideal)) := by
  funext i
  obtain ⟨p, q, rfl⟩ : ∃ (p : Fin 100000) (q : Fin 128), i = ix2 p q := ⟨i 0, i 1, eq_ix2 i⟩
  show max (a (ix2 p q) + shapeCast Cert.KernelIdeal.S1x128 b Cert.KernelIdeal.Facts₀.shapeCasts_S128_S1x128 (ix2 (0 : Fin 1) q)) (Ideal.ofBits .f32 0x00000000#32)
    = max (a (ix2 p q) + Cert.Gcn.biasRows (F := Ideal) b (ix2 p q)) (Cert.Gcn.zeroRows (F := Ideal) (ix2 p q))
  rw [rowCast_apply, biasRows_apply, zeroRows_apply]

/-- The second bias step, by tiles over the reshaped bias row, is the reference's broadcast bias added. -/
theorem rowsPlus3_eq (a : FVec Ideal Cert.KernelIdeal.S100000x128 .f32) (b : FVec Ideal Cert.KernelIdeal.S128 .f32) :
    Cert.KernelIdeal.Tile3.rowsPlus a (shapeCast Cert.KernelIdeal.S1x128 b Cert.KernelIdeal.Facts₀.shapeCasts_S128_S1x128)
      = addf a (Cert.Gcn.biasRows (F := Ideal) b) := by
  funext i
  obtain ⟨p, q, rfl⟩ : ∃ (p : Fin 100000) (q : Fin 128), i = ix2 p q := ⟨i 0, i 1, eq_ix2 i⟩
  show a (ix2 p q) + shapeCast Cert.KernelIdeal.S1x128 b Cert.KernelIdeal.Facts₀.shapeCasts_S128_S1x128 (ix2 (0 : Fin 1) q)
    = a (ix2 p q) + Cert.Gcn.biasRows (F := Ideal) b (ix2 p q)
  rw [rowCast_apply, biasRows_apply]

end Cert.Bridge

end
-- ==== Proof.Boundaries.lean ====
/-
  The contents of the idealized kernel's buffers at the boundaries between its host stretches and its four tiled
  regions, read back to the six argument arrays. Before the first region the host computes the edges' source and target
  nodes and the edge weights; the first region multiplies the node features by the first matrix; the next stretch
  aggregates along the edges and reshapes the first bias to a row; the second region adds the bias and takes the maximum
  with zero, which gives the hidden features; the third region multiplies them by the second matrix; the last stretch
  aggregates again and reshapes the second bias; the fourth region adds it. A buffer that a stretch or a region does not
  write keeps its contents across it, which carries the arguments, the edges' ends and the edge weights forward to
  where they are used.
-/
import proofs.«142823_j27324581937692_1_alg».proof.Proof.Gen.KernelIdeal.Frame
import proofs.«142823_j27324581937692_1_alg».proof.Proof.Stages
import proofs.«142823_j27324581937692_1_alg».proof.Proof.Tile0
import proofs.«142823_j27324581937692_1_alg».proof.Proof.Tile1
import proofs.«142823_j27324581937692_1_alg».proof.Proof.Tile2
import proofs.«142823_j27324581937692_1_alg».proof.Proof.Tile3
import proofs.«142823_j27324581937692_1_alg».proof.Proof.Bridges

set_option maxRecDepth 16384

noncomputable section

namespace Cert.KernelIdeal.Boundaries

open Cert.KernelIdeal Cert.KernelIdeal.Gen Idealize.ShloMosaic Idealize.ShloMosaic.TcCoe Idealize.SL.Sem Idealize.ShloMosaic.StableHlo

/-- A buffer that no operation of a host stretch writes holds after the stretch what it held before. -/
macro "stretch_keeps" : tactic => `(tactic| (
  refine StableHlo.after_of_forall_not_mem _ _ (List.forall_iff_forall_mem.mp ?_)
  simp only [hostOps0, hostOps0_1, hostOps0_2, hostOps1, hostOps3, List.Forall, StableHlo.nullary_writes, StableHlo.unary_writes,
    StableHlo.binary_writes, StableHlo.ternary_writes, StableHlo.quaternary_writes, StableHlo.reshape_writes, Finset.mem_singleton]
  repeat' apply And.intro
  all_goals exact StableHlo.devRef_ne_of_ne (by decide)))

variable (m : (ℓ : Loc nD τ sig) → Buf (Elt Ideal) ℓ) (ρ : Dev nD → PrngReg) (c : Dev nD)

/-! ## Before the first region -/

theorem W3_arg0 : W3 m ρ c (Proc.devRef .tc main_arg0) = (m ((c : Thread nD τ).loc main_arg0)) :=
  calc W3 m ρ c (Proc.devRef .tc main_arg0)
    _ = W2 m ρ c (Proc.devRef .tc main_arg0) := by stretch_keeps
    _ = W1 m ρ c (Proc.devRef .tc main_arg0) := by stretch_keeps
    _ = W0 m ρ c (Proc.devRef .tc main_arg0) := by stretch_keeps
    _ = (m ((c : Thread nD τ).loc main_arg0)) := rfl
theorem W3_arg2 : W3 m ρ c (Proc.devRef .tc main_arg2) = (m ((c : Thread nD τ).loc main_arg2)) :=
  calc W3 m ρ c (Proc.devRef .tc main_arg2)
    _ = W2 m ρ c (Proc.devRef .tc main_arg2) := by stretch_keeps
    _ = W1 m ρ c (Proc.devRef .tc main_arg2) := by stretch_keeps
    _ = W0 m ρ c (Proc.devRef .tc main_arg2) := by stretch_keeps
    _ = (m ((c : Thread nD τ).loc main_arg2)) := rfl

/-- The edges' source nodes. -/
theorem W3_sources : W3 m ρ c (Proc.devRef .tc main_v3) = Cert.Gcn.sources (F := Ideal) (m ((c : Thread nD τ).loc main_arg1)) := by
  show StableHlo.after hostOps0_2 (StableHlo.after hostOps0_1 (StableHlo.after hostOps0 (W0 m ρ c))) (Proc.devRef .tc main_v3) = _
  after_results_simp <;> rfl

/-- The edges' target nodes. -/
theorem W3_targets : W3 m ρ c (Proc.devRef .tc main_v6) = Cert.Gcn.targets (F := Ideal) (m ((c : Thread nD τ).loc main_arg1)) := by
  show StableHlo.after hostOps0_2 (StableHlo.after hostOps0_1 (StableHlo.after hostOps0 (W0 m ρ c))) (Proc.devRef .tc main_v6) = _
  after_results_simp <;> rfl

/-! The edge weights are read one stretch at a time: what each of the three stretches leaves, over any contents before
    it, and then the three composed. -/

/-- The first stretch leaves the test "the degree is positive", -/
theorem first_degreePositive (V0 : Valuation τ sig (Elt Ideal)) : StableHlo.after hostOps0 V0 (Proc.devRef .tc main_v12)
    = cmpf .ogt (Cert.Gcn.degree (F := Ideal) (V0 (Proc.devRef .tc main_arg1)))
        (broadcastInDim S100000 ![] bcast_S_S100000 (constant (F := Ideal) S_ .f32 0x00000000#32)) := by
  after_results_simp <;> rfl

/-- the inverse square root of the degree, -/
theorem first_rsqrtDegree (V0 : Valuation τ sig (Elt Ideal)) : (StableHlo.after hostOps0 V0 (Proc.devRef .tc main_v13) : FVec Ideal S100000 .f32)
    = Host.rsqrt (F := Ideal) (s := S100000) (φ := .f32) (Cert.Gcn.degree (F := Ideal) (V0 (Proc.devRef .tc main_arg1))) := by
  after_results_simp <;> rfl

/-- a scalar zero, -/
theorem first_zero (V0 : Valuation τ sig (Elt Ideal)) : StableHlo.after hostOps0 V0 (Proc.devRef .tc main_cst_2)
    = constant (F := Ideal) S_ .f32 0x00000000#32 := by
  after_results_simp <;> rfl

/-- and the edges' sources and targets. -/
theorem first_sources (V0 : Valuation τ sig (Elt Ideal)) : StableHlo.after hostOps0 V0 (Proc.devRef .tc main_v3)
    = Cert.Gcn.sources (F := Ideal) (V0 (Proc.devRef .tc main_arg1)) := by
  after_results_simp <;> rfl
theorem first_targets (V0 : Valuation τ sig (Elt Ideal)) : StableHlo.after hostOps0 V0 (Proc.devRef .tc main_v6)
    = Cert.Gcn.targets (F := Ideal) (V0 (Proc.devRef .tc main_arg1)) := by
  after_results_simp <;> rfl

/-- The second stretch selects, node by node, the inverse square root where the test holds and the zero elsewhere. -/
theorem second_select (V1 : Valuation τ sig (Elt Ideal)) : StableHlo.after hostOps0_1 V1 (Proc.devRef .tc main_v14)
    = select (V1 (Proc.devRef .tc main_v12)) (V1 (Proc.devRef .tc main_v13))
        (broadcastInDim S100000 ![] bcast_S_S100000 (V1 (Proc.devRef .tc main_cst_2))) := by
  after_results_simp <;> rfl

/-- The third stretch reads that value at both ends of every edge and multiplies the two. -/
theorem third_weights (V2 : Valuation τ sig (Elt Ideal)) : (StableHlo.after hostOps0_2 V2 (Proc.devRef .tc main_v29) : FVec Ideal S740000 .f32)
    = mulf (F := Ideal) (s := S740000) (φ := .f32) (Host.gather Cert.ReferenceIdeal.gather_S100000_S740000x1_S740000_n_0_n_n_0_1_1 (V2 (Proc.devRef .tc main_v14) : FVec Ideal S100000 .f32)
          (Cert.Gcn.asColumn (Cert.Gcn.wrapped (F := Ideal) (V2 (Proc.devRef .tc main_v3)))))
        (Host.gather Cert.ReferenceIdeal.gather_S100000_S740000x1_S740000_n_0_n_n_0_1_1 (V2 (Proc.devRef .tc main_v14) : FVec Ideal S100000 .f32)
          (Cert.Gcn.asColumn (Cert.Gcn.wrapped (F := Ideal) (V2 (Proc.devRef .tc main_v6))))) := by
  after_results_simp <;> rfl

theorem W2_sources : W2 m ρ c (Proc.devRef .tc main_v3) = Cert.Gcn.sources (F := Ideal) (m ((c : Thread nD τ).loc main_arg1)) :=
  calc W2 m ρ c (Proc.devRef .tc main_v3)
    _ = W1 m ρ c (Proc.devRef .tc main_v3) := by stretch_keeps
    _ = Cert.Gcn.sources (F := Ideal) (m ((c : Thread nD τ).loc main_arg1)) := first_sources (W0 m ρ c)

theorem W2_targets : W2 m ρ c (Proc.devRef .tc main_v6) = Cert.Gcn.targets (F := Ideal) (m ((c : Thread nD τ).loc main_arg1)) :=
  calc W2 m ρ c (Proc.devRef .tc main_v6)
    _ = W1 m ρ c (Proc.devRef .tc main_v6) := by stretch_keeps
    _ = Cert.Gcn.targets (F := Ideal) (m ((c : Thread nD τ).loc main_arg1)) := first_targets (W0 m ρ c)

theorem W2_invSqrtDegree : W2 m ρ c (Proc.devRef .tc main_v14) = Cert.Gcn.invSqrtDegree (F := Ideal) (m ((c : Thread nD τ).loc main_arg1)) := by
  refine (second_select (W1 m ρ c)).trans ?_
  rw [show W1 m ρ c (Proc.devRef .tc main_v12) = _ from first_degreePositive (W0 m ρ c),
    show W1 m ρ c (Proc.devRef .tc main_v13) = _ from first_rsqrtDegree (W0 m ρ c),
    show W1 m ρ c (Proc.devRef .tc main_cst_2) = _ from first_zero (W0 m ρ c)]
  rfl

/-- The edge weights. -/
theorem W3_weights : W3 m ρ c (Proc.devRef .tc main_v29) = Cert.Gcn.edgeWeight (F := Ideal) (m ((c : Thread nD τ).loc main_arg1)) := by
  refine (third_weights (W2 m ρ c)).trans ?_
  rw [W2_invSqrtDegree, W2_sources, W2_targets]
  rfl

/-! ## The first region: the node features times the first matrix -/

theorem W4_product : W4 m ρ c (Proc.devRef .tc main_v30) = Cert.Gcn.dense (F := Ideal) (m ((c : Thread nD τ).loc main_arg0)) (m ((c : Thread nD τ).loc main_arg2)) := by
  refine (W4_arr m ρ c 2).trans ?_
  refine (Tile0.final (V3 m ρ) c).trans ?_
  show Tile0.rowsTimes (W3 m ρ c (Proc.devRef .tc main_arg0)) (W3 m ρ c (Proc.devRef .tc main_arg2)) = _
  rw [W3_arg0, W3_arg2]
  exact Cert.Bridge.rowsTimes0_eq _ _

theorem W4_sources : W4 m ρ c (Proc.devRef .tc main_v3) = Cert.Gcn.sources (F := Ideal) (m ((c : Thread nD τ).loc main_arg1)) :=
  calc W4 m ρ c (Proc.devRef .tc main_v3)
    _ = W3 m ρ c (Proc.devRef .tc main_v3) := W4_of_ne m ρ c main_v3 (by decide)
    _ = Cert.Gcn.sources (F := Ideal) (m ((c : Thread nD τ).loc main_arg1)) := W3_sources m ρ c
theorem W4_targets : W4 m ρ c (Proc.devRef .tc main_v6) = Cert.Gcn.targets (F := Ideal) (m ((c : Thread nD τ).loc main_arg1)) :=
  calc W4 m ρ c (Proc.devRef .tc main_v6)
    _ = W3 m ρ c (Proc.devRef .tc main_v6) := W4_of_ne m ρ c main_v6 (by decide)
    _ = Cert.Gcn.targets (F := Ideal) (m ((c : Thread nD τ).loc main_arg1)) := W3_targets m ρ c
theorem W4_weights : W4 m ρ c (Proc.devRef .tc main_v29) = Cert.Gcn.edgeWeight (F := Ideal) (m ((c : Thread nD τ).loc main_arg1)) :=
  calc W4 m ρ c (Proc.devRef .tc main_v29)
    _ = W3 m ρ c (Proc.devRef .tc main_v29) := W4_of_ne m ρ c main_v29 (by decide)
    _ = Cert.Gcn.edgeWeight (F := Ideal) (m ((c : Thread nD τ).loc main_arg1)) := W3_weights m ρ c
theorem W4_arg3 : W4 m ρ c (Proc.devRef .tc main_arg3) = (m ((c : Thread nD τ).loc main_arg3)) :=
  calc W4 m ρ c (Proc.devRef .tc main_arg3)
    _ = W3 m ρ c (Proc.devRef .tc main_arg3) := W4_of_ne m ρ c main_arg3 (by decide)
    _ = W2 m ρ c (Proc.devRef .tc main_arg3) := by stretch_keeps
    _ = W1 m ρ c (Proc.devRef .tc main_arg3) := by stretch_keeps
    _ = W0 m ρ c (Proc.devRef .tc main_arg3) := by stretch_keeps
    _ = (m ((c : Thread nD τ).loc main_arg3)) := rfl

/-! ## The stretch after it: aggregate along the edges; the first bias as a row -/

theorem W5_aggregate : W5 m ρ c (Proc.devRef .tc main_v43)
    = Cert.Gcn.aggregate (F := Ideal) (Cert.Gcn.dense (F := Ideal) (m ((c : Thread nD τ).loc main_arg0)) (m ((c : Thread nD τ).loc main_arg2))) (m ((c : Thread nD τ).loc main_arg1)) := by
  show StableHlo.after hostOps1 (W4 m ρ c) (Proc.devRef .tc main_v43) = _
  after_results_simp
  rw [W4_sources, W4_targets, W4_weights, W4_product]
  rfl

theorem W5_biasRow : W5 m ρ c (Proc.devRef .tc main_v44) = shapeCast S1x128 (m ((c : Thread nD τ).loc main_arg3)) shapeCasts_S128_S1x128 := by
  show StableHlo.after hostOps1 (W4 m ρ c) (Proc.devRef .tc main_v44) = _
  after_results_simp
  rw [W4_arg3]
  rfl

/-! ## The second region: add the bias, take the maximum with zero -/

theorem W6_hidden : W6 m ρ c (Proc.devRef .tc main_v45) = Cert.Gcn.hidden (F := Ideal) (m ((c : Thread nD τ).loc main_arg0)) (m ((c : Thread nD τ).loc main_arg1)) (m ((c : Thread nD τ).loc main_arg2)) (m ((c : Thread nD τ).loc main_arg3)) := by
  refine (W6_arr m ρ c 2).trans ?_
  refine (Tile1.final (V5 m ρ) c).trans ?_
  show Tile1.rowsPlus (W5 m ρ c (Proc.devRef .tc main_v43)) (W5 m ρ c (Proc.devRef .tc main_v44)) = _
  rw [W5_aggregate, W5_biasRow]
  exact Cert.Bridge.rowsPlus1_eq _ _

theorem W6_arg4 : W6 m ρ c (Proc.devRef .tc main_arg4) = (m ((c : Thread nD τ).loc main_arg4)) :=
  calc W6 m ρ c (Proc.devRef .tc main_arg4)
    _ = W5 m ρ c (Proc.devRef .tc main_arg4) := W6_of_ne m ρ c main_arg4 (by decide)
    _ = W4 m ρ c (Proc.devRef .tc main_arg4) := by stretch_keeps
    _ = W3 m ρ c (Proc.devRef .tc main_arg4) := W4_of_ne m ρ c main_arg4 (by decide)
    _ = W2 m ρ c (Proc.devRef .tc main_arg4) := by stretch_keeps
    _ = W1 m ρ c (Proc.devRef .tc main_arg4) := by stretch_keeps
    _ = W0 m ρ c (Proc.devRef .tc main_arg4) := by stretch_keeps
    _ = (m ((c : Thread nD τ).loc main_arg4)) := rfl

/-! ## The third region: the hidden features times the second matrix -/

theorem W7_product : W7 m ρ c (Proc.devRef .tc main_v46)
    = Cert.Gcn.dense (F := Ideal) (Cert.Gcn.hidden (F := Ideal) (m ((c : Thread nD τ).loc main_arg0)) (m ((c : Thread nD τ).loc main_arg1)) (m ((c : Thread nD τ).loc main_arg2)) (m ((c : Thread nD τ).loc main_arg3))) (m ((c : Thread nD τ).loc main_arg4)) := by
  refine (W7_arr m ρ c 2).trans ?_
  refine (Tile2.final (V6 m ρ) c).trans ?_
  show Tile2.rowsTimes (W6 m ρ c (Proc.devRef .tc main_v45)) (W6 m ρ c (Proc.devRef .tc main_arg4)) = _
  rw [W6_hidden, W6_arg4]
  exact Cert.Bridge.rowsTimes2_eq _ _

theorem W7_sources : W7 m ρ c (Proc.devRef .tc main_v3) = Cert.Gcn.sources (F := Ideal) (m ((c : Thread nD τ).loc main_arg1)) :=
  calc W7 m ρ c (Proc.devRef .tc main_v3)
    _ = W6 m ρ c (Proc.devRef .tc main_v3) := W7_of_ne m ρ c main_v3 (by decide)
    _ = W5 m ρ c (Proc.devRef .tc main_v3) := W6_of_ne m ρ c main_v3 (by decide)
    _ = W4 m ρ c (Proc.devRef .tc main_v3) := by stretch_keeps
    _ = W3 m ρ c (Proc.devRef .tc main_v3) := W4_of_ne m ρ c main_v3 (by decide)
    _ = Cert.Gcn.sources (F := Ideal) (m ((c : Thread nD τ).loc main_arg1)) := W3_sources m ρ c
theorem W7_targets : W7 m ρ c (Proc.devRef .tc main_v6) = Cert.Gcn.targets (F := Ideal) (m ((c : Thread nD τ).loc main_arg1)) :=
  calc W7 m ρ c (Proc.devRef .tc main_v6)
    _ = W6 m ρ c (Proc.devRef .tc main_v6) := W7_of_ne m ρ c main_v6 (by decide)
    _ = W5 m ρ c (Proc.devRef .tc main_v6) := W6_of_ne m ρ c main_v6 (by decide)
    _ = W4 m ρ c (Proc.devRef .tc main_v6) := by stretch_keeps
    _ = W3 m ρ c (Proc.devRef .tc main_v6) := W4_of_ne m ρ c main_v6 (by decide)
    _ = Cert.Gcn.targets (F := Ideal) (m ((c : Thread nD τ).loc main_arg1)) := W3_targets m ρ c
theorem W7_weights : W7 m ρ c (Proc.devRef .tc main_v29) = Cert.Gcn.edgeWeight (F := Ideal) (m ((c : Thread nD τ).loc main_arg1)) :=
  calc W7 m ρ c (Proc.devRef .tc main_v29)
    _ = W6 m ρ c (Proc.devRef .tc main_v29) := W7_of_ne m ρ c main_v29 (by decide)
    _ = W5 m ρ c (Proc.devRef .tc main_v29) := W6_of_ne m ρ c main_v29 (by decide)
    _ = W4 m ρ c (Proc.devRef .tc main_v29) := by stretch_keeps
    _ = W3 m ρ c (Proc.devRef .tc main_v29) := W4_of_ne m ρ c main_v29 (by decide)
    _ = Cert.Gcn.edgeWeight (F := Ideal) (m ((c : Thread nD τ).loc main_arg1)) := W3_weights m ρ c
theorem W7_arg5 : W7 m ρ c (Proc.devRef .tc main_arg5) = (m ((c : Thread nD τ).loc main_arg5)) :=
  calc W7 m ρ c (Proc.devRef .tc main_arg5)
    _ = W6 m ρ c (Proc.devRef .tc main_arg5) := W7_of_ne m ρ c main_arg5 (by decide)
    _ = W5 m ρ c (Proc.devRef .tc main_arg5) := W6_of_ne m ρ c main_arg5 (by decide)
    _ = W4 m ρ c (Proc.devRef .tc main_arg5) := by stretch_keeps
    _ = W3 m ρ c (Proc.devRef .tc main_arg5) := W4_of_ne m ρ c main_arg5 (by decide)
    _ = W2 m ρ c (Proc.devRef .tc main_arg5) := by stretch_keeps
    _ = W1 m ρ c (Proc.devRef .tc main_arg5) := by stretch_keeps
    _ = W0 m ρ c (Proc.devRef .tc main_arg5) := by stretch_keeps
    _ = (m ((c : Thread nD τ).loc main_arg5)) := rfl

/-! ## The last stretch: aggregate again; the second bias as a row -/

theorem W8_aggregate : W8 m ρ c (Proc.devRef .tc main_v59)
    = Cert.Gcn.aggregate (F := Ideal) (Cert.Gcn.dense (F := Ideal) (Cert.Gcn.hidden (F := Ideal) (m ((c : Thread nD τ).loc main_arg0)) (m ((c : Thread nD τ).loc main_arg1)) (m ((c : Thread nD τ).loc main_arg2)) (m ((c : Thread nD τ).loc main_arg3))) (m ((c : Thread nD τ).loc main_arg4))) (m ((c : Thread nD τ).loc main_arg1)) := by
  show StableHlo.after hostOps3 (W7 m ρ c) (Proc.devRef .tc main_v59) = _
  after_results_simp
  rw [W7_sources, W7_targets, W7_weights, W7_product]
  rfl

theorem W8_biasRow : W8 m ρ c (Proc.devRef .tc main_v60) = shapeCast S1x128 (m ((c : Thread nD τ).loc main_arg5)) shapeCasts_S128_S1x128 := by
  show StableHlo.after hostOps3 (W7 m ρ c) (Proc.devRef .tc main_v60) = _
  after_results_simp
  rw [W7_arg5]
  rfl

/-! ## The fourth region: add the second bias — the network -/

/-- The result buffer at the last boundary holds the two-layer network of the six argument arrays. -/
theorem result : W9 m ρ c (Proc.devRef .tc main_v61)
    = Cert.Gcn.net (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W9_arr m ρ c 2).trans ?_
  refine (Tile3.final (V8 m ρ) c).trans ?_
  show Tile3.rowsPlus (W8 m ρ c (Proc.devRef .tc main_v59)) (W8 m ρ c (Proc.devRef .tc main_v60)) = _
  rw [W8_aggregate, W8_biasRow]
  exact Cert.Bridge.rowsPlus3_eq _ _

end Cert.KernelIdeal.Boundaries

end
-- ==== Proof.lean ====
/-
  A two-layer graph convolution: a Pallas program against its jnp reference, equal on the extended reals.

  Both programs append the 100000 self loops to the 640000 edges, count each node's degree by a scatter-add of ones,
  take the inverse square root of the positive degrees, and weight each edge by the product of its two ends' values. A
  layer multiplies the node features by a 128 × 128 matrix, gathers each edge's source row, scales it by the edge's
  weight, scatter-adds it at the edge's target, and adds a bias row; the first layer is followed by a maximum with zero.
  The reference does all of this with host operations. The kernel keeps the gathers and scatter-adds on the host and
  runs the two products and the two bias steps as tiled regions of 20 tiles of 5000 rows.

  On the extended reals the two programs compute the same function of the six arguments, with no algebraic law needed
  beyond reading each tile's entry: a tile of a product contracts the whole shared axis, so an entry of the tiled
  product is the same sum over 128 positions as the entry of the whole product, the rounding of the operands to bf16
  being the identity there; a tile of a bias step adds to an entry the bias of its column, which is what adding the
  bias broadcast to every row does. The tiles of each region cover its result array, so each region's result is the
  host stage it stands for, and the host operations between the regions are the reference's own, applied to equal
  arrays. The precondition that the inputs are finite is not used. The idealization rewrote nothing, so the kernel's
  idealized text is its own.
-/
import proofs.«142823_j27324581937692_1_alg».proof.Defs
import proofs.«142823_j27324581937692_1_alg».proof.Proof.Gen.Kernel
import proofs.«142823_j27324581937692_1_alg».proof.Proof.Gen.Kernel.Frame
import proofs.«142823_j27324581937692_1_alg».proof.Proof.Gen.KernelIdeal
import proofs.«142823_j27324581937692_1_alg».proof.Proof.Gen.KernelIdeal.Frame
import proofs.«142823_j27324581937692_1_alg».proof.Proof.Gen.ReferenceIdeal
import proofs.«142823_j27324581937692_1_alg».proof.Proof.Gen.Pre_finite_inputs
import proofs.«142823_j27324581937692_1_alg».proof.Proof.KernelRun
import proofs.«142823_j27324581937692_1_alg».proof.Proof.RefRun
import proofs.«142823_j27324581937692_1_alg».proof.Proof.Boundaries
import Idealize.ShloMosaic.Adequacy
import Idealize.ShloMosaic.Init

noncomputable section

namespace Cert.Proof

open Idealize.ShloMosaic Idealize.SL.Sem

/-- The kernel as printed runs to the end without a fault and leaves its arguments as launched. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- So does the reference: its run with the result dropped. -/
theorem frame_reference : Cert.frame_ReferenceIdeal := fun m ρ _ =>
  (θ_run Cert.ReferenceIdeal.defs _ _).mono (fun _ h c => (h c).2) (Cert.ReferenceIdeal.HostRun.run (F := Ideal) m ρ)

/-- The idealization rewrote no operation. -/
theorem preserves : Cert.preserves_Kernel_KernelIdeal := trivial

/-- From memories that agree on the six arguments both programs end with the network of those arguments in their
    result arrays: the kernel by its boundaries read back, the reference by its run. -/
theorem algebraic : Cert.algebraic_KernelIdeal_ReferenceIdeal := by
  intro m ρ m' ρ' _ hagree
  refine ⟨fun c => Cert.Gcn.net (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.Boundaries.result m ρ c), (h c).2⟩)
      (Cert.KernelIdeal.RunValue.run (F := Ideal) m ρ)
  · refine (θ_run Cert.ReferenceIdeal.defs _ _).mono (fun _ h c => ⟨(h c).1.trans ?_, (h c).2⟩)
      (Cert.ReferenceIdeal.HostRun.run (F := Ideal) m' ρ')
    rw [(hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
